-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v25)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v16) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_v26) = v2 c
          ∧ r.2.mem ((c.tc : Thread Cert.ReferenceIdeal.nD Cert.ReferenceIdeal.τ).loc Cert.ReferenceIdeal.main_v36) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S16384x100x1 : Shape := ⟨3, ![16384, 100, 1]⟩
abbrev S128x4096 : Shape := ⟨2, ![128, 4096]⟩
abbrev S4096 : Shape := ⟨1, ![4096]⟩
abbrev S4096x4096 : Shape := ⟨2, ![4096, 4096]⟩
abbrev S4096x8 : Shape := ⟨2, ![4096, 8]⟩
abbrev S8 : Shape := ⟨1, ![8]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S16384x100x1 : S_.BroadcastsInDim S16384x100x1 (![] : Fin 0 → Fin S16384x100x1.rank)
  reducesTo_S16384x100x1_S_d0_1_2 : S16384x100x1.ReducesTo [0, 1, 2] S_
  bcast_S_S128x4096 : S_.BroadcastsInDim S128x4096 (![] : Fin 0 → Fin S128x4096.rank)
  reducesTo_S128x4096_S_d0_1 : S128x4096.ReducesTo [0, 1] S_
  bcast_S_S4096 : S_.BroadcastsInDim S4096 (![] : Fin 0 → Fin S4096.rank)
  reducesTo_S4096_S_d0 : S4096.ReducesTo [0] S_
  bcast_S_S4096x4096 : S_.BroadcastsInDim S4096x4096 (![] : Fin 0 → Fin S4096x4096.rank)
  reducesTo_S4096x4096_S_d0_1 : S4096x4096.ReducesTo [0, 1] S_
  bcast_S_S4096x8 : S_.BroadcastsInDim S4096x8 (![] : Fin 0 → Fin S4096x8.rank)
  reducesTo_S4096x8_S_d0_1 : S4096x8.ReducesTo [0, 1] S_
  bcast_S_S8 : S_.BroadcastsInDim S8 (![] : Fin 0 → Fin S8.rank)
  reducesTo_S8_S_d0 : S8.ReducesTo [0] S_

variable [Facts]

def fn_part2 {F : FTy → Type} [FloatOps F] (main_arg7 : FVec F S8 .f32) (main_v33 : IVec S_ 1) : IVec S_ 1 :=
  let main_v34 : FVec F S8 .f32 := Host.absf main_arg7
  let main_cst_12 : FVec F S_ .f32 := constant S_ .f32 0x7F800000#32
  let main_v35 : FVec F S8 .f32 := broadcastInDim S8 ![] bcast_S_S8 main_cst_12
  let main_v36 : IVec S8 1 := cmpf .olt main_v34 main_v35
  let main_c_13 : IVec S_ 1 := constantI S_ 1 1#1
  let main_v37 : IVec S_ 1 := (fun x v => Host.reduce IntOp.andi x v reducesTo_S8_S_d0 h_S_) main_v36 main_c_13
  let main_v38 : IVec S_ 1 := andi main_v33 main_v37
  main_v38

def fn_part1 {F : FTy → Type} [FloatOps F] (main_arg4 : FVec F S4096x4096 .f32) (main_arg5 : FVec F S4096 .f32) (main_arg6 : FVec F S4096x8 .f32) (main_arg7 : FVec F S8 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096x8 .f32 := Host.absf main_arg6
  let main_cst_10 : FVec F S_ .f32 := constant S_ .f32 0x7F800000#32
  let main_v30 : FVec F S4096x8 .f32 := broadcastInDim S4096x8 ![] bcast_S_S4096x8 main_cst_10
  let main_v31 : IVec S4096x8 1 := cmpf .olt main_v29 main_v30
  let main_c_11 : IVec S_ 1 := constantI S_ 1 1#1
  let main_v32 : IVec S_ 1 := (fun x v => Host.reduce IntOp.andi x v reducesTo_S4096x8_S_d0_1 h_S_) main_v31 main_c_11
  let main_v33 : IVec S_ 1 := andi main_v28 main_v32
  fn_part2 (F := F) main_arg7 main_v33

def fn {F : FTy → Type} [FloatOps F] (main_arg0 : FVec F S16384x128 .f32) (main_arg1 : FVec F S16384x100x1 .f32) (main_arg2 : FVec F S128x4096 .f32) (main_arg3 : FVec F S4096 .f32) (main_arg4 : FVec F S4096x4096 .f32) (main_arg5 : FVec F S4096 .f32) (main_arg6 : FVec F S4096x8 .f32) (main_arg7 : FVec F S8 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S16384x100x1 .f32 := Host.absf main_arg1
  let main_cst_0 : FVec F S_ .f32 := constant S_ .f32 0x7F800000#32
  let main_v5 : FVec F S16384x100x1 .f32 := broadcastInDim S16384x100x1 ![] bcast_S_S16384x100x1 main_cst_0
  let main_v6 : IVec S16384x100x1 1 := cmpf .olt main_v4 main_v5
  let main_c_1 : IVec S_ 1 := constantI S_ 1 1#1
  let main_v7 : IVec S_ 1 := (fun x v => Host.reduce IntOp.andi x v reducesTo_S16384x100x1_S_d0_1_2 h_S_) main_v6 main_c_1
  let main_v8 : IVec S_ 1 := andi main_v3 main_v7
  let main_v9 : FVec F S128x4096 .f32 := Host.absf main_arg2
  let main_cst_2 : FVec F S_ .f32 := constant S_ .f32 0x7F800000#32
  let main_v10 : FVec F S128x4096 .f32 := broadcastInDim S128x4096 ![] bcast_S_S128x4096 main_cst_2
  let main_v11 : IVec S128x4096 1 := cmpf .olt main_v9 main_v10
  let main_c_3 : IVec S_ 1 := constantI S_ 1 1#1
  let main_v12 : IVec S_ 1 := (fun x v => Host.reduce IntOp.andi x v reducesTo_S128x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_v13 main_v16
-- ==== Kernel.lean ====
abbrev S16384x128 : Shape := ⟨2, ![16384, 128]⟩
abbrev S16384x100x1 : Shape := ⟨3, ![16384, 100, 1]⟩
abbrev S128x4096 : Shape := ⟨2, ![128, 4096]⟩
abbrev S4096 : Shape := ⟨1, ![4096]⟩
abbrev S4096x4096 : Shape := ⟨2, ![4096, 4096]⟩
abbrev S4096x8 : Shape := ⟨2, ![4096, 8]⟩
abbrev S8 : Shape := ⟨1, ![8]⟩
abbrev S1x4096 : Shape := ⟨2, ![1, 4096]⟩
abbrev S1x8 : Shape := ⟨2, ![1, 8]⟩
abbrev S16384x8 : Shape := ⟨2, ![16384, 8]⟩
abbrev S256x128 : Shape := ⟨2, ![256, 128]⟩
abbrev S256x8 : Shape := ⟨2, ![256, 8]⟩
abbrev S256x4096 : Shape := ⟨2, ![256, 4096]⟩
abbrev S4096x512 : Shape := ⟨2, ![4096, 512]⟩
abbrev S1x512 : Shape := ⟨2, ![1, 512]⟩
abbrev S256x512 : Shape := ⟨2, ![256, 512]⟩
abbrev S512x8 : Shape := ⟨2, ![512, 8]⟩
abbrev S16384x100 : Shape := ⟨2, ![16384, 100]⟩
abbrev S_ : Shape := ⟨0, ![]⟩
abbrev S16384x100x4 : Shape := ⟨3, ![16384, 100, 4]⟩
abbrev S16384x2x4 : Shape := ⟨3, ![16384, 2, 4]⟩
abbrev S16384x100x2 : Shape := ⟨3, ![16384, 100, 2]⟩
abbrev S16384x4 : Shape := ⟨2, ![16384, 4]⟩
abbrev S16384x1x4 : Shape := ⟨3, ![16384, 1, 4]⟩
abbrev S16384 : Shape := ⟨1, ![16384]⟩
abbrev S16384x1 : Shape := ⟨2, ![16384, 1]⟩

abbrev nBuf : Space → Nat
  | .hbm => 39
  | .vmem => 10
  | .smem => 0
  | _ => 0

abbrev bufTy : (tb : Table) → Fin (tcTables nBuf tb) → BufTy
  | .hbm, ⟨0, _⟩ => ⟨S16384x128, .f32⟩
  | .hbm, ⟨1, _⟩ => ⟨S16384x100x1, .f32⟩
  | .hbm, ⟨2, _⟩ => ⟨S128x4096, .f32⟩
  | .hbm, ⟨3, _⟩ => ⟨S4096, .f32⟩
  | .hbm, ⟨4, _⟩ => ⟨S4096x4096, .f32⟩
  | .hbm, ⟨5, _⟩ => ⟨S4096, .f32⟩
  | .hbm, ⟨6, _⟩ => ⟨S4096x8, .f32⟩
  | .hbm, ⟨7, _⟩ => ⟨S8, .f32⟩
  | .hbm, ⟨8, _⟩ => ⟨S128x4096, .bf16⟩
  | .hbm, ⟨9, _⟩ => ⟨S4096x4096, .bf16⟩
  | .hbm, ⟨10, _⟩ => ⟨S4096x8, .bf16⟩
  | .hbm, ⟨11, _⟩ => ⟨S1x4096, .f32⟩
  | .hbm, ⟨12, _⟩ => ⟨S1x4096, .f32⟩
  | .hbm, ⟨13, _⟩ => ⟨S1x8, .f32⟩
  | .hbm, ⟨14, _⟩ => ⟨S16384x8, .f32⟩
  | .hbm, ⟨15, _⟩ => ⟨S16384x100, .f32⟩
  | .hbm, ⟨16, _⟩ => ⟨S_, .f32⟩
  | .hbm, ⟨17, _⟩ => ⟨S16384x100, .f32⟩
  | .hbm, ⟨18, _⟩ => ⟨S16384x100, .f32⟩
  | .hbm, ⟨19, _⟩ => ⟨S16384x100, .f32⟩
  | .hbm, ⟨20, _⟩ => ⟨S16384x100, .f32⟩
  | .hbm, ⟨21, _⟩ => ⟨S16384x100x1, .f32⟩
  | .hbm, ⟨22, _⟩ => ⟨S16384x100x1, .f32⟩
  | .hbm, ⟨23, _⟩ => ⟨S16384x100x1, .f32⟩
  | .hbm, ⟨24, _⟩ => ⟨S16384x100x1, .f32⟩
  | .hbm, ⟨25, _⟩ => ⟨S16384x100x4, .f32⟩
  | .hbm, ⟨26, _⟩ => ⟨S16384x2x4, .f32⟩
  | .hbm, ⟨27, _⟩ => ⟨S16384x100x2, .f32⟩
  | .hbm, ⟨28, _⟩ => ⟨S16384x100x4, .f32⟩
  | .hbm, ⟨29, _⟩ => ⟨S_, .f32⟩
  | .hbm, ⟨30, _⟩ => ⟨S16384x4, .f32⟩
  | .hbm, ⟨31, _⟩ => ⟨S16384x4, .f32⟩
  | .hbm, ⟨32, _⟩ => ⟨S16384x2x4, .f32⟩
  | .hbm, ⟨33, _⟩ => ⟨S16384x1x4, .f32⟩
  | .hbm, ⟨34, _⟩ => ⟨S16384x2x4, .f32⟩
  | .hbm, ⟨35, _⟩ => ⟨S16384x2x4, .f32⟩
  | .hbm, ⟨36, _⟩ => ⟨S_, .f32⟩
  | .hbm, ⟨37, _⟩ => ⟨S16384, .f32⟩
  | .hbm, ⟨38, _⟩ => ⟨S16384x1, .f32⟩
  | .local _ .vmem, ⟨0, _⟩ => ⟨S256x128, .f32⟩
  | .local _ .vmem, ⟨1, _⟩ => ⟨S256x128, .f32⟩
  | .local _ .vmem, ⟨2, _⟩ => ⟨S128x4096, .bf16⟩
  | .local _ .vmem, ⟨3, _⟩ => ⟨S1x4096, .f32⟩
  | .local _ .vmem, ⟨4, _⟩ => ⟨S4096x4096, .bf16⟩
  | .local _ .vmem, ⟨5, _⟩ => ⟨S1x4096, .f32⟩
  | .local _ .vmem, ⟨6, _⟩ => ⟨S4096x8, .bf16⟩
  | .local _ .vmem, ⟨7, _⟩ => ⟨S1x8, .f32⟩
  | .local _ .vmem, ⟨8, _⟩ => ⟨S256x8, .f32⟩
  | .local _ .vmem, ⟨9, _⟩ => ⟨S256x8, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_cst : Ref sig .tc := ⟨.hbm, 29, rfl⟩
abbrev main_call0_v1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_0 : Ref sig .tc := ⟨.hbm, 36, rfl⟩
abbrev main_v24 : Ref sig .tc := ⟨.hbm, 37, rfl⟩
abbrev main_v25 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c8_i32 : BitVec 32 := 8#32
  let v16 : BitVec 32 := Scalar.addi c0_i32 c8_i32
  let c1_i32 : BitVec 32 := 1#32
  ⟨c0_i32, v16, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c512_i32 : BitVec 32 := 512#32
  let v28 : BitVec 32 := Scalar.muli arg9 c512_i32
  v28
def k0_off1 (k0_t1 : Fin k0_t1_loop.trips) : Fin 2 → Nat :=
  let c0_15 : Index := 0#32
  let c0_i32 : BitVec 32 := 0#32
  let c1_i32 : BitVec 32 := 1#32
  let arg9 : BitVec 32 := Scf.iv c0_i32 c1_i32 k0_t1
  let c512_i32 : BitVec 32 := 512#32
  let v28 : BitVec 32 := Scalar.muli arg9 c512_i32
  let v29 : BitVec 32 := v28
  let v30 : Index := Scalar.indexCast v29
  ![0, v30.toNat]
def k0_off2 (k0_t1 : Fin k0_t1_loop.trips) : Fin 2 → Nat :=
  let c0_16 : Index := 0#32
  let c0_i32 : BitVec 32 := 0#32
  let c1_i32 : BitVec 32 := 1#32
  let arg9 : BitVec 32 := Scf.iv c0_i32 c1_i32 k0_t1
  let c512_i32 : BitVec 32 := 512#32
  let v28 : BitVec 32 := Scalar.muli arg9 c512_i32
  let v29 : BitVec 32 := v28
  let v33 : Index := Scalar.indexCast v29
  ![0, v33.toNat]
def k0_off3 (k0_t1 : Fin k0_t1_loop.trips) : Fin 2 → Nat :=
  let c0_i32 : BitVec 32 := 0#32
  let c1_i32 : BitVec 32 := 1#32
  let arg9 : BitVec 32 := Scf.iv c0_i32 c1_i32 k0_t1
  let c512_i32 : BitVec 32 := 512#32
  let v28 : BitVec 32 := Scalar.muli arg9 c512_i32
  let v29 : BitVec 32 := v28
  let v45 : Index := Scalar.indexCast v29
  let c0_20 : Index := 0#32
  ![v45.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x8 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x8 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bitsLt_bf16_f32 : FTy.bits .bf16 < FTy.bits .f32
  shapeCasts_S4096_S1x4096 : S4096.ShapeCasts S1x4096
  shapeCasts_S8_S1x8 : S8.ShapeCasts S1x8
  inb_S256x128_S256x128_0_0 : ∀ a, (![0, 0] : Fin 2 → Nat) a + S256x128.size a ≤ S256x128.size a
  h_S256x128 : 0 < S256x128.numel
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  h_S4096x512 : 0 < S4096x512.numel
  shapeCasts_S4096x512_S4096x512 : S4096x512.ShapeCasts S4096x512
  h_S1x512 : 0 < S1x512.numel
  shapeCasts_S1x512_S1x512 : S1x512.ShapeCasts S1x512
  broadcasts_S1x512_S256x512 : S1x512.Broadcasts S256x512
  h_S512x8 : 0 < S512x8.numel
  shapeCasts_S512x8_S512x8 : S512x8.ShapeCasts S512x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S256x8 : S1x8.Broadcasts S256x8
  inb_S256x8_S256x8_0_0 : ∀ a, (![0, 0] : Fin 2 → Nat) a + S256x8.size a ≤ S256x8.size a
  h_S256x8 : 0 < S256x8.numel
  shapeCasts_S16384x100x1_S16384x100 : S16384x100x1.ShapeCasts S16384x100
  bcast_S_S16384x100 : S_.BroadcastsInDim S16384x100 (![] : Fin 0 → Fin S16384x100.rank)
  bcast_S16384x100_S16384x100x1_0_1 : S16384x100.BroadcastsInDim S16384x100x1 (![0, 1] : Fin 2 → Fin S16384x100x1.rank)
  concatenates_S16384x100x1_S16384x100x1_S16384x100x1_S16384x100x1_S16384x100x4_d2 : Shape.Concatenates [S16384x100x1, S16384x100x1, S16384x100x1, S16384x100x1] S16384x100x4 2
  shapeCasts_S16384x8_S16384x2x4 : S16384x8.ShapeCasts S16384x2x4
  reducesTo_S16384x100x4_S16384x4_d1 : S16384x100x4.ReducesTo [1] S16384x4
  h_S_ : 0 < S_.numel
  bcast_S16384x4_S16384x1x4_0_2 : S16384x4.BroadcastsInDim S16384x1x4 (![0, 2] : Fin 2 → Fin S16384x1x4.rank)
  bcast_S16384x1x4_S16384x2x4_0_1_2 : S16384x1x4.BroadcastsInDim S16384x2x4 (![0, 1, 2] : Fin 3 → Fin S16384x2x4.rank)
  reducesTo_S16384x2x4_S16384_d1_2 : S16384x2x4.ReducesTo [1, 2] S16384
  bcast_S16384_S16384x1_0 : S16384.BroadcastsInDim S16384x1 (![0] : Fin 1 → Fin S16384x1.rank)
  dot_S256x128_S128x4096_S256x4096_1_0_0_1_n_n_wf : DotDims.WF S256x128 S128x4096 S256x4096 [1] [0] [0] [1] [] []
  dot_S256x4096_S4096x512_S256x512_1_0_0_1_n_n_wf : DotDims.WF S256x4096 S4096x512 S256x512 [1] [0] [0] [1] [] []
  dot_S256x512_S512x8_S256x8_1_0_0_1_n_n_wf : DotDims.WF S256x512 S512x8 S256x8 [1] [0] [0] [1] [] []
  dot_S16384x100x4_S16384x2x4_S16384x100x2_2_2_1_1_0_0_wf : DotDims.WF S16384x100x4 S16384x2x4 S16384x100x2 [2] [2] [1] [1] [0] [0]
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S4096x512.size a ≤ S4096x4096.size a
  k0_off2_inb : ∀ k0_t1 : Fin k0_t1_loop.trips, ∀ a, (k0_off2 k0_t1) a + S1x512.size a ≤ S1x4096.size a
  k0_off3_inb : ∀ k0_t1 : Fin k0_t1_loop.trips, ∀ a, (k0_off3 k0_t1) a + S512x8.size a ≤ S4096x8.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S16384x128.size a
  hwx0_0 : ∀ i : grid0.Coords, EltTy.bits .f32 = 32 ∨ (Rect.block (s := S16384x128) S256x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S128x4096.size a
  hwx0_1 : ∀ i : grid0.Coords, EltTy.bits .bf16 = 32 ∨ (Rect.block (s := S128x4096) S128x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x4096.size a ≤ S4096x4096.size a
  hwx0_3 : ∀ i : grid0.Coords, EltTy.bits .bf16 = 32 ∨ (Rect.block (s := S4096x4096) S4096x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096x8.size a ≤ S4096x8.size a
  hwx0_5 : ∀ i : grid0.Coords, EltTy.bits .bf16 = 32 ∨ (Rect.block (s := S4096x8) S4096x8.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x8.size a ≤ S1x8.size a
  hwx0_6 : ∀ i : grid0.Coords, EltTy.bits .f32 = 32 ∨ (Rect.block (s := S1x8) S1x8.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x8.size a ≤ S16384x8.size a
  hwx0_7 : ∀ i : grid0.Coords, EltTy.bits .f32 = 32 ∨ (Rect.block (s := S16384x8) S256x8.size (cc0_transform_7 i) (hinb0_7 i)).WholeWords (EltTy.packing .f32)

variable [Facts₀]

def dot_S256x128_S128x4096_S256x4096_1_0_0_1_n_n : DotDims S256x128 S128x4096 S256x4096 where
  lhsContracting := [1]
  rhsContracting := [0]
  lhsNonContracting := [0]
  rhsNonContracting := [1]
  lhsBatch := []
  rhsBatch := []
  wf := dot_S256x128_S128x4096_S256x4096_1_0_0_1_n_n_wf
def dot_S256x4096_S4096x512_S256x512_1_0_0_1_n_n : DotDims S256x4096 S4096x512 S256x512 where
  lhsContracting := [1]
  rhsContracting := [0]
  lhsNonContracting := [0]
  rhsNonContracting := [1]
  lhsBatch := []
  rhsBatch := []
  wf := dot_S256x4096_S4096x512_S256x512_1_0_0_1_n_n_wf
def dot_S256x512_S512x8_S256x8_1_0_0_1_n_n : DotDims S256x512 S512x8 S256x8 where
  lhsContracting := [1]
  rhsContracting := [0]
  lhsNonContracting := [0]
  rhsNonContracting := [1]
  lhsBatch := []
  rhsBatch := []
  wf := dot_S256x512_S512x8_S256x8_1_0_0_1_n_n_wf
def dot_S16384x100x4_S16384x2x4_S16384x100x2_2_2_1_1_0_0 : DotDims S16384x100x4 S16384x2x4 S16384x100x2 where
  lhsContracting := [2]
  rhsContracting := [2]
  lhsNonContracting := [1]
  rhsNonContracting := [1]
  lhsBatch := [0]
  rhsBatch := [0]
  wf := dot_S16384x100x4_S16384x2x4_S16384x100x2_2_2_1_1_0_0_wf

abbrev win0_0 : Pipeline.Window sig grid0 :=
  Pipeline.Window.ofSpec (Memref.whole main_arg0) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4096x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S4096x8.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x8.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S256x8.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x128 : Shape := ⟨2, ![16384, 128]⟩
abbrev S16384x100x1 : Shape := ⟨3, ![16384, 100, 1]⟩
abbrev S128x4096 : Shape := ⟨2, ![128, 4096]⟩
abbrev S4096 : Shape := ⟨1, ![4096]⟩
abbrev S4096x4096 : Shape := ⟨2, ![4096, 4096]⟩
abbrev S4096x8 : Shape := ⟨2, ![4096, 8]⟩
abbrev S8 : Shape := ⟨1, ![8]⟩
abbrev S16384x4096 : Shape := ⟨2, ![16384, 4096]⟩
abbrev S1x4096 : Shape := ⟨2, ![1, 4096]⟩
abbrev S_ : Shape := ⟨0, ![]⟩
abbrev S16384x8 : Shape := ⟨2, ![16384, 8]⟩
abbrev S1x8 : Shape := ⟨2, ![1, 8]⟩
abbrev S16384x100 : Shape := ⟨2, ![16384, 100]⟩
abbrev S16384x100x4 : Shape := ⟨3, ![16384, 100, 4]⟩
abbrev S16384x2x4 : Shape := ⟨3, ![16384, 2, 4]⟩
abbrev S16384x100x2 : Shape := ⟨3, ![16384, 100, 2]⟩
abbrev S16384x4 : Shape := ⟨2, ![16384, 4]⟩
abbrev S16384x1x4 : Shape := ⟨3, ![16384, 1, 4]⟩
abbrev S16384 : Shape := ⟨1, ![16384]⟩
abbrev S16384x1 : Shape := ⟨2, ![16384, 1]⟩

abbrev nBuf : Space → Nat
  | .hbm => 65
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x100x1, .f32⟩
  | .hbm, ⟨2, _⟩ => ⟨S128x4096, .f32⟩
  | .hbm, ⟨3, _⟩ => ⟨S4096, .f32⟩
  | .hbm, ⟨4, _⟩ => ⟨S4096x4096, .f32⟩
  | .hbm, ⟨5, _⟩ => ⟨S4096, .f32⟩
  | .hbm, ⟨6, _⟩ => ⟨S4096x8, .f32⟩
  | .hbm, ⟨7, _⟩ => ⟨S8, .f32⟩
  | .hbm, ⟨8, _⟩ => ⟨S16384x4096, .f32⟩
  | .hbm, ⟨9, _⟩ => ⟨S1x4096, .f32⟩
  | .hbm, ⟨10, _⟩ => ⟨S16384x4096, .f32⟩
  | .hbm, ⟨11, _⟩ => ⟨S16384x4096, .f32⟩
  | .hbm, ⟨12, _⟩ => ⟨S_, .f32⟩
  | .hbm, ⟨13, _⟩ => ⟨S16384x4096, .f32⟩
  | .hbm, ⟨14, _⟩ => ⟨S16384x4096, .i1⟩
  | .hbm, ⟨15, _⟩ => ⟨S_, .f32⟩
  | .hbm, ⟨16, _⟩ => ⟨S16384x4096, .f32⟩
  | .hbm, ⟨17, _⟩ => ⟨S16384x4096, .f32⟩
  | .hbm, ⟨18, _⟩ => ⟨S16384x4096, .f32⟩
  | .hbm, ⟨19, _⟩ => ⟨S16384x4096, .f32⟩
  | .hbm, ⟨20, _⟩ => ⟨S1x4096, .f32⟩
  | .hbm, ⟨21, _⟩ => ⟨S16384x4096, .f32⟩
  | .hbm, ⟨22, _⟩ => ⟨S16384x4096, .f32⟩
  | .hbm, ⟨23, _⟩ => ⟨S_, .f32⟩
  | .hbm, ⟨24, _⟩ => ⟨S16384x4096, .f32⟩
  | .hbm, ⟨25, _⟩ => ⟨S16384x4096, .i1⟩
  | .hbm, ⟨26, _⟩ => ⟨S_, .f32⟩
  | .hbm, ⟨27, _⟩ => ⟨S16384x4096, .f32⟩
  | .hbm, ⟨28, _⟩ => ⟨S16384x4096, .f32⟩
  | .hbm, ⟨29, _⟩ => ⟨S16384x4096, .f32⟩
  | .hbm, ⟨30, _⟩ => ⟨S16384x8, .f32⟩
  | .hbm, ⟨31, _⟩ => ⟨S1x8, .f32⟩
  | .hbm, ⟨32, _⟩ => ⟨S16384x8, .f32⟩
  | .hbm, ⟨33, _⟩ => ⟨S16384x8, .f32⟩
  | .hbm, ⟨34, _⟩ => ⟨S_, .f32⟩
  | .hbm, ⟨35, _⟩ => ⟨S16384x8, .f32⟩
  | .hbm, ⟨36, _⟩ => ⟨S16384x8, .i1⟩
  | .hbm, ⟨37, _⟩ => ⟨S_, .f32⟩
  | .hbm, ⟨38, _⟩ => ⟨S16384x8, .f32⟩
  | .hbm, ⟨39, _⟩ => ⟨S16384x8, .f32⟩
  | .hbm, ⟨40, _⟩ => ⟨S16384x8, .f32⟩
  | .hbm, ⟨41, _⟩ => ⟨S16384x100, .f32⟩
  | .hbm, ⟨42, _⟩ => ⟨S_, .f32⟩
  | .hbm, ⟨43, _⟩ => ⟨S16384x100, .f32⟩
  | .hbm, ⟨44, _⟩ => ⟨S16384x100, .f32⟩
  | .hbm, ⟨45, _⟩ => ⟨S16384x100, .f32⟩
  | .hbm, ⟨46, _⟩ => ⟨S16384x100, .f32⟩
  | .hbm, ⟨47, _⟩ => ⟨S16384x100x1, .f32⟩
  | .hbm, ⟨48, _⟩ => ⟨S16384x100x1, .f32⟩
  | .hbm, ⟨49, _⟩ => ⟨S16384x100x1, .f32⟩
  | .hbm, ⟨50, _⟩ => ⟨S16384x100x1, .f32⟩
  | .hbm, ⟨51, _⟩ => ⟨S16384x100x4, .f32⟩
  | .hbm, ⟨52, _⟩ => ⟨S16384x2x4, .f32⟩
  | .hbm, ⟨53, _⟩ => ⟨S16384x100x2, .f32⟩
  | .hbm, ⟨54, _⟩ => ⟨S16384x100x4, .f32⟩
  | .hbm, ⟨55, _⟩ => ⟨S_, .f32⟩
  | .hbm, ⟨56, _⟩ => ⟨S16384x4, .f32⟩
  | .hbm, ⟨57, _⟩ => ⟨S16384x4, .f32⟩
  | .hbm, ⟨58, _⟩ => ⟨S16384x2x4, .f32⟩
  | .hbm, ⟨59, _⟩ => ⟨S16384x1x4, .f32⟩
  | .hbm, ⟨60, _⟩ => ⟨S16384x2x4, .f32⟩
  | .hbm, ⟨61, _⟩ => ⟨S16384x2x4, .f32⟩
  | .hbm, ⟨62, _⟩ => ⟨S_, .f32⟩
  | .hbm, ⟨63, _⟩ => ⟨S16384, .f32⟩
  | .hbm, ⟨64, _⟩ => ⟨S16384x1, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_call3_v0 : Ref sig .tc := ⟨.hbm, 54, rfl⟩
abbrev main_call3_cst : Ref sig .tc := ⟨.hbm, 55, rfl⟩
abbrev main_call3_v1 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_6 : Ref sig .tc := ⟨.hbm, 62, rfl⟩
abbrev main_v44 : Ref sig .tc := ⟨.hbm, 63, rfl⟩
abbrev main_v45 : Ref sig .tc := ⟨.hbm, 64, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  bcast_S_S16384x4096 : S_.BroadcastsInDim S16384x4096 (![] : Fin 0 → Fin S16384x4096.rank)
  bcast_S8_S1x8_1 : S8.BroadcastsInDim S1x8 (![1] : Fin 1 → Fin S1x8.rank)
  bcast_S1x8_S16384x8_0_1 : S1x8.BroadcastsInDim S16384x8 (![0, 1] : Fin 2 → Fin S16384x8.rank)
  bcast_S_S16384x8 : S_.BroadcastsInDim S16384x8 (![] : Fin 0 → Fin S16384x8.rank)
  shapeCasts_S16384x100x1_S16384x100 : S16384x100x1.ShapeCasts S16384x100
  bcast_S_S16384x100 : S_.BroadcastsInDim S16384x100 (![] : Fin 0 → Fin S16384x100.rank)
  bcast_S16384x100_S16384x100x1_0_1 : S16384x100.BroadcastsInDim S16384x100x1 (![0, 1] : Fin 2 → Fin S16384x100x1.rank)
  concatenates_S16384x100x1_S16384x100x1_S16384x100x1_S16384x100x1_S16384x100x4_d2 : Shape.Concatenates [S16384x100x1, S16384x100x1, S16384x100x1, S16384x100x1] S16384x100x4 2
  shapeCasts_S16384x8_S16384x2x4 : S16384x8.ShapeCasts S16384x2x4
  reducesTo_S16384x100x4_S16384x4_d1 : S16384x100x4.ReducesTo [1] S16384x4
  h_S_ : 0 < S_.numel
  bcast_S16384x4_S16384x1x4_0_2 : S16384x4.BroadcastsInDim S16384x1x4 (![0, 2] : Fin 2 → Fin S16384x1x4.rank)
  bcast_S16384x1x4_S16384x2x4_0_1_2 : S16384x1x4.BroadcastsInDim S16384x2x4 (![0, 1, 2] : Fin 3 → Fin S16384x2x4.rank)
  reducesTo_S16384x2x4_S16384_d1_2 : S16384x2x4.ReducesTo [1, 2] S16384
  bcast_S16384_S16384x1_0 : S16384.BroadcastsInDim S16384x1 (![0] : Fin 1 → Fin S16384x1.rank)
  dot_S16384x128_S128x4096_S16384x4096_1_0_0_1_n_n_wf : DotDims.WF S16384x128 S128x4096 S16384x4096 [1] [0] [0] [1] [] []
  dot_S16384x4096_S4096x4096_S16384x4096_1_0_0_1_n_n_wf : DotDims.WF S16384x4096 S4096x4096 S16384x4096 [1] [0] [0] [1] [] []
  dot_S16384x4096_S4096x8_S16384x8_1_0_0_1_n_n_wf : DotDims.WF S16384x4096 S4096x8 S16384x8 [1] [0] [0] [1] [] []
  dot_S16384x100x4_S16384x2x4_S16384x100x2_2_2_1_1_0_0_wf : DotDims.WF S16384x100x4 S16384x2x4 S16384x100x2 [2] [2] [1] [1] [0] [0]

variable [Facts₀]

def dot_S16384x128_S128x4096_S16384x4096_1_0_0_1_n_n : DotDims S16384x128 S128x4096 S16384x4096 where
  lhsContracting := [1]
  rhsContracting := [0]
  lhsNonContracting := [0]
  rhsNonContracting := [1]
  lhsBatch := []
  rhsBatch := []
  wf := dot_S16384x128_S128x4096_S16384x4096_1_0_0_1_n_n_wf
def dot_S16384x4096_S4096x4096_S16384x4096_1_0_0_1_n_n : DotDims S16384x4096 S4096x4096 S16384x4096 where
  lhsContracting := [1]
  rhsContracting := [0]
  lhsNonContracting := [0]
  rhsNonContracting := [1]
  lhsBatch := []
  rhsBatch := []
  wf := dot_S16384x4096_S4096x4096_S16384x4096_1_0_0_1_n_n_wf
def dot_S16384x4096_S4096x8_S16384x8_1_0_0_1_n_n : DotDims S16384x4096 S4096x8 S16384x8 where
  lhsContracting := [1]
  rhsContracting := [0]
  lhsNonContracting := [0]
  rhsNonContracting := [1]
  lhsBatch := []
  rhsBatch := []
  wf := dot_S16384x4096_S4096x8_S16384x8_1_0_0_1_n_n_wf
def dot_S16384x100x4_S16384x2x4_S16384x100x2_2_2_1_1_0_0 : DotDims S16384x100x4 S16384x2x4 S16384x100x2 where
  lhsContracting := [2]
  rhsContracting := [2]
  lhsNonContracting := [1]
  rhsNonContracting := [1]
  lhsBatch := [0]
  rhsBatch := [0]
  wf := dot_S16384x100x4_S16384x2x4_S16384x100x2_2_2_1_1_0_0_wf

class Facts : Prop extends Facts₀ where

variable [Facts]
-- ==== Proof.K.Main.lean ====
/-
  The kernel's @main, as printed, around its one launch. Before the launch six host operations write
  buffers of their own (three format changes of the weight matrices, three reshapes of the bias
  vectors into one-row matrices); after it three stretches of host operations build the polynomial
  basis, contract it with the coefficients, take the basis' column norms and sum the weighted squares.
  None of them writes an argument array, and none of the later ones writes an array the launch stages:
  so every argument array is found by the launch as it was at the start, and ends as it was.
-/
import proofs.«108501_j38474317038072_2_alg».proof.Proof.Gen.Kernel.Launch
import proofs.«108501_j38474317038072_2_alg».proof.Proof.Gen.Kernel.Skeleton
import proofs.«108501_j38474317038072_2_alg».proof.Proof.Gen.Kernel.Loops
import proofs.«108501_j38474317038072_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host operations after the launch, stretch by stretch. -/
abbrev tailOps : List (List (HloOp τ sig (Elt F))) := [hostOps1, hostOps1_1, hostOps1_2]

/-- The buffers' contents when the launch begins: the six host operations applied to the start memory. -/
abbrev V0 (c : Dev nD) : Valuation τ sig (Elt F) := StableHlo.after (List.flatten [hostOps0]) (fun b => m (c, b))
/-- The same, read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- @main is: the operations before the launch, the launch, the operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The later operations touch unscoped buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-- And write no array the launch stages: each writes its own result buffer, which is none of them. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl
  · simp only [hostOps1, List.mem_cons, List.mem_nil_iff, or_false] at hop
    rcases hop with rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)
  · simp only [hostOps1_1, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)
  · simp only [hostOps1_2, List.mem_cons, List.mem_nil_iff, or_false] at hop
    rcases hop with rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The argument arrays, before and after -/

/-- No operation before the launch writes argument 0: the launch finds it as it was at the start. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation before the launch writes argument 1: the launch finds it as it was at the start. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation before the launch writes argument 2: the launch finds it as it was at the start. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation before the launch writes argument 3: the launch finds it as it was at the start. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation before the launch writes argument 4: the launch finds it as it was at the start. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation before the launch writes argument 5: the launch finds it as it was at the start. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation before the launch writes argument 6: the launch finds it as it was at the start. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation before the launch writes argument 7: the launch finds it as it was at the start. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation after the launch writes argument 1, and the launch stages no block of it: it ends as it was. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (List.forall_iff_forall_mem.mp (by
      simp only [hostOps1, hostOps1_1, hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No operation after the launch writes argument 2, and the launch stages no block of it: it ends as it was. -/
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (List.forall_iff_forall_mem.mp (by
      simp only [hostOps1, hostOps1_1, hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No operation after the launch writes argument 3, and the launch stages no block of it: it ends as it was. -/
theorem W_main_arg3 (dats : (p : Fin _) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) := by
  unfold Pipeline.afterTail₀
  rw [StableHlo.after_of_forall_not_mem (b := Proc.devRef .tc main_arg3) _ _ (List.forall_iff_forall_mem.mp (by
      simp only [hostOps1, hostOps1_1, hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No operation after the launch writes argument 4, and the launch stages no block of it: it ends as it was. -/
theorem W_main_arg4 (dats : (p : Fin _) → (c : Dev nD) → Dat τ (Elt F) Unit ℕ (UR sig nD τ) ℕ (cfgs p) c) (c : Dev nD) :
    Pipeline.afterTail₀ cfgs dats 0 (V0 m) tailOps c main_arg4 = m ((c : Thread nD τ).loc main_arg4) := by
  unfold Pipeline.afterTail₀
  rw [StableHlo.after_of_forall_not_mem (b := Proc.devRef .tc main_arg4) _ _ (List.forall_iff_forall_mem.mp (by
      simp only [hostOps1, hostOps1_1, hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No operation after the launch writes argument 5, and the launch stages no block of it: it ends as it was. -/
theorem W_main_arg5 (dats : (p : Fin _) → (c : Dev nD) → Dat τ (Elt F) Unit ℕ (UR sig nD τ) ℕ (cfgs p) c) (c : Dev nD) :
    Pipeline.afterTail₀ cfgs dats 0 (V0 m) tailOps c main_arg5 = m ((c : Thread nD τ).loc main_arg5) := by
  unfold Pipeline.afterTail₀
  rw [StableHlo.after_of_forall_not_mem (b := Proc.devRef .tc main_arg5) _ _ (List.forall_iff_forall_mem.mp (by
      simp only [hostOps1, hostOps1_1, hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No operation after the launch writes argument 6, and the launch stages no block of it: it ends as it was. -/
theorem W_main_arg6 (dats : (p : Fin _) → (c : Dev nD) → Dat τ (Elt F) Unit ℕ (UR sig nD τ) ℕ (cfgs p) c) (c : Dev nD) :
    Pipeline.afterTail₀ cfgs dats 0 (V0 m) tailOps c main_arg6 = m ((c : Thread nD τ).loc main_arg6) := by
  unfold Pipeline.afterTail₀
  rw [StableHlo.after_of_forall_not_mem (b := Proc.devRef .tc main_arg6) _ _ (List.forall_iff_forall_mem.mp (by
      simp only [hostOps1, hostOps1_1, hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No operation after the launch writes argument 7, and the launch stages no block of it: it ends as it was. -/
theorem W_main_arg7 (dats : (p : Fin _) → (c : Dev nD) → Dat τ (Elt F) Unit ℕ (UR sig nD τ) ℕ (cfgs p) c) (c : Dev nD) :
    Pipeline.afterTail₀ cfgs dats 0 (V0 m) tailOps c main_arg7 = m ((c : Thread nD τ).loc main_arg7) := by
  unfold Pipeline.afterTail₀
  rw [StableHlo.after_of_forall_not_mem (b := Proc.devRef .tc main_arg7) _ _ (List.forall_iff_forall_mem.mp (by
      simp only [hostOps1, hostOps1_1, hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

end Cert.Kernel.Fr

end
-- ==== Proof.K.Body.lean ====
/-
  One grid point of the kernel as printed, as a triple over its eight staging buffers. The body reads
  the row block of x, the three weight matrices and the three bias rows, runs its counted loop over
  the eight column chunks of the second layer carrying the (256, 8) accumulator, adds the last bias,
  applies the leaky rectifier and stores the whole (256, 8) output block once. The seven input buffers
  are handed back as they were; the output buffer ends at the one store's value, whatever it held.
  That value is not written out here: it is the witness the run of the body finds.
-/
import proofs.«108501_j38474317038072_2_alg».proof.Proof.Gen.Kernel.Launch
import proofs.«108501_j38474317038072_2_alg».proof.Proof.Gen.Kernel.Skeleton
import proofs.«108501_j38474317038072_2_alg».proof.Proof.Gen.Kernel.Loops
import proofs.«108501_j38474317038072_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The one store's rectangle: the whole (256, 8) output block. -/
abbrev rOut : Rect S256x8 := Rect.unit (s := S256x8) ![0, 0] S256x8.size inb_S256x8_S256x8_0_0

/-- It covers the block. -/
theorem coverOut (p0 : Vec F S256x8 .f32) (y : S256x8.Idx) :
    ∃ pc ∈ ([⟨rOut, p0⟩] : List (View.Piece (Elt F) S256x8 .f32)), y ∈ pc.1.set :=
  View.cover_of_tiled [⟨rOut, p0⟩] S256x8.size (by rfl) y

set_option maxHeartbeats 4000000 in
/-- The body's triple at any point, on any whole staging buffers holding `x0 … x6`: it runs to the
    continuation with the inputs as they were and the output block at the value found. -/
@[irreducible] def bodyRun (c : Dev nD) (i : grid0.Coords) (arg1 : Memref sig .tc .vmem S256x128 .f32) (harg1 : arg1.IsWhole) (arg2 : Memref sig .tc .vmem S128x4096 .bf16) (harg2 : arg2.IsWhole) (arg3 : Memref sig .tc .vmem S1x4096 .f32) (harg3 : arg3.IsWhole) (arg4 : Memref sig .tc .vmem S4096x4096 .bf16) (harg4 : arg4.IsWhole) (arg5 : Memref sig .tc .vmem S1x4096 .f32) (harg5 : arg5.IsWhole) (arg6 : Memref sig .tc .vmem S4096x8 .bf16) (harg6 : arg6.IsWhole) (arg7 : Memref sig .tc .vmem S1x8 .f32) (harg7 : arg7.IsWhole) (arg8 : Memref sig .tc .vmem S256x8 .f32) (harg8 : arg8.IsWhole)
    (x0 : Vec F S256x128 .f32) (x1 : Vec F S128x4096 .bf16) (x2 : Vec F S1x4096 .f32) (x3 : Vec F S4096x4096 .bf16) (x4 : Vec F S1x4096 .f32) (x5 : Vec F S4096x8 .bf16) (x6 : Vec F S1x8 .f32) :
    { o : Vec F S256x8 .f32 // ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare o) -∗ K ⟨⟩))
          ⊢ wp frame (wpE (defs₀ (F := F)) Variants.none c none) E (cc0__mlp_kernel i arg1 harg1 arg2 harg2 arg3 harg3 arg4 harg4 arg5 harg5 arg6 harg6 arg7 harg7 arg8 harg8) K } := by
  refine ⟨?_, fun E K => ?run⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; isplitr; swap; · iexact H7
    ipureintro
    exact View.read_writes_eq_canon _ _ _ (coverOut (F := F) _)

end Cert.Kernel.Fr

end
-- ==== Proof.K.Run.lean ====
/-
  The run of the kernel as printed. Each window's block at a grid point is read off its array as the launch
  finds it; every input window's staging buffer holds that block at every point (the six resident
  operands are fetched once, at the first point, and their block index never moves); the output
  window's buffer is written whole at every point and flushed. With the body's triple at a generic
  point this gives the launch's obligation, the run of @main around the launch, and from it that every
  argument array ends as it began.
-/
import proofs.«108501_j38474317038072_2_alg».proof.Proof.K.Main
import proofs.«108501_j38474317038072_2_alg».proof.Proof.K.Body

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Each window's current staging buffer at point `t`, and that it is a whole buffer. -/
abbrev ms0_0 (t : Fin cfg0.N) : Memref sig .tc .vmem S256x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4096 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x4096 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x4096 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4096x8 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x8 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x8 .f32 := win0_7.stage (cfg0.slots t 7)
abbrev hs0_7 (t : Fin cfg0.N) : (ms0_7 t).IsWhole := hstage0_7 ((cfg0.slots t 7).cast nbuf0_7)

/-- What the body leaves in the output block at point `t`: the value its run finds, at the point's
    staging buffers and input blocks. -/
def outAt (c : Dev nD) (t : Fin cfg0.N) : Vec F S256x8 .f32 :=
  (bodyRun (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t) (iblk m c 6 t)).1

/-! ## The launch's proof data -/

/-- The arrays as the launch finds them; after the body at point `t` each input's buffer at its block and
    the output's at `outAt`; nothing else held, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  unfold outAt
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((bodyRun (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t) (iblk m c 6 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; at the end every staged array holds what the launch's
    write-backs leave and every other unscoped buffer what the later host operations compute. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- From such a run: every argument array ends as it began. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨
      (((h c).1 0).trans (((dats 0 c).arrAt_in 0 rfl _).trans ((hA c 0).trans (V_main_arg0 m c)))),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c)),
      (((h c).2 main_arg4 (Pipeline.mem_restRefs_of main_arg4 (by decide) (by decide))).trans (W_main_arg4 m dats c)),
      (((h c).2 main_arg5 (Pipeline.mem_restRefs_of main_arg5 (by decide) (by decide))).trans (W_main_arg5 m dats c)),
      (((h c).2 main_arg6 (Pipeline.mem_restRefs_of main_arg6 (by decide) (by decide))).trans (W_main_arg6 m dats c)),
      (((h c).2 main_arg7 (Pipeline.mem_restRefs_of main_arg7 (by decide) (by decide))).trans (W_main_arg7 m dats c))⟩) h

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.Kernel.Fr

end
-- ==== Proof.KI.Main.lean ====
/-
  The idealized kernel's @main around its one launch. Before the launch six host operations write
  buffers of their own (three format changes of the weight matrices, three reshapes of the bias
  vectors into one-row matrices); after it three stretches of host operations build the polynomial
  basis, contract it with the coefficients, take the basis' column norms and sum the weighted squares.
  None of them writes an argument array, and none of the later ones writes an array the launch stages:
  so every argument array is found by the launch as it was at the start, and ends as it was.
-/
import proofs.«108501_j38474317038072_2_alg».proof.Proof.Gen.KernelIdeal.Launch
import proofs.«108501_j38474317038072_2_alg».proof.Proof.Gen.KernelIdeal.Skeleton
import proofs.«108501_j38474317038072_2_alg».proof.Proof.Gen.KernelIdeal.Loops
import proofs.«108501_j38474317038072_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host operations after the launch, stretch by stretch. -/
abbrev tailOps : List (List (HloOp τ sig (Elt F))) := [hostOps1, hostOps1_1, hostOps1_2]

/-- The buffers' contents when the launch begins: the six host operations applied to the start memory. -/
abbrev V0 (c : Dev nD) : Valuation τ sig (Elt F) := StableHlo.after (List.flatten [hostOps0]) (fun b => m (c, b))
/-- The same, read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- @main is: the operations before the launch, the launch, the operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The later operations touch unscoped buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-- And write no array the launch stages: each writes its own result buffer, which is none of them. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl
  · simp only [hostOps1, List.mem_cons, List.mem_nil_iff, or_false] at hop
    rcases hop with rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)
  · simp only [hostOps1_1, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)
  · simp only [hostOps1_2, List.mem_cons, List.mem_nil_iff, or_false] at hop
    rcases hop with rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The argument arrays, before and after -/

/-- No operation before the launch writes argument 0: the launch finds it as it was at the start. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation before the launch writes argument 1: the launch finds it as it was at the start. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation before the launch writes argument 2: the launch finds it as it was at the start. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation before the launch writes argument 3: the launch finds it as it was at the start. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation before the launch writes argument 4: the launch finds it as it was at the start. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation before the launch writes argument 5: the launch finds it as it was at the start. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation before the launch writes argument 6: the launch finds it as it was at the start. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation before the launch writes argument 7: the launch finds it as it was at the start. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation after the launch writes argument 1, and the launch stages no block of it: it ends as it was. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (List.forall_iff_forall_mem.mp (by
      simp only [hostOps1, hostOps1_1, hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No operation after the launch writes argument 2, and the launch stages no block of it: it ends as it was. -/
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (List.forall_iff_forall_mem.mp (by
      simp only [hostOps1, hostOps1_1, hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No operation after the launch writes argument 3, and the launch stages no block of it: it ends as it was. -/
theorem W_main_arg3 (dats : (p : Fin _) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) := by
  unfold Pipeline.afterTail₀
  rw [StableHlo.after_of_forall_not_mem (b := Proc.devRef .tc main_arg3) _ _ (List.forall_iff_forall_mem.mp (by
      simp only [hostOps1, hostOps1_1, hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No operation after the launch writes argument 4, and the launch stages no block of it: it ends as it was. -/
theorem W_main_arg4 (dats : (p : Fin _) → (c : Dev nD) → Dat τ (Elt F) Unit ℕ (UR sig nD τ) ℕ (cfgs p) c) (c : Dev nD) :
    Pipeline.afterTail₀ cfgs dats 0 (V0 m) tailOps c main_arg4 = m ((c : Thread nD τ).loc main_arg4) := by
  unfold Pipeline.afterTail₀
  rw [StableHlo.after_of_forall_not_mem (b := Proc.devRef .tc main_arg4) _ _ (List.forall_iff_forall_mem.mp (by
      simp only [hostOps1, hostOps1_1, hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No operation after the launch writes argument 5, and the launch stages no block of it: it ends as it was. -/
theorem W_main_arg5 (dats : (p : Fin _) → (c : Dev nD) → Dat τ (Elt F) Unit ℕ (UR sig nD τ) ℕ (cfgs p) c) (c : Dev nD) :
    Pipeline.afterTail₀ cfgs dats 0 (V0 m) tailOps c main_arg5 = m ((c : Thread nD τ).loc main_arg5) := by
  unfold Pipeline.afterTail₀
  rw [StableHlo.after_of_forall_not_mem (b := Proc.devRef .tc main_arg5) _ _ (List.forall_iff_forall_mem.mp (by
      simp only [hostOps1, hostOps1_1, hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No operation after the launch writes argument 6, and the launch stages no block of it: it ends as it was. -/
theorem W_main_arg6 (dats : (p : Fin _) → (c : Dev nD) → Dat τ (Elt F) Unit ℕ (UR sig nD τ) ℕ (cfgs p) c) (c : Dev nD) :
    Pipeline.afterTail₀ cfgs dats 0 (V0 m) tailOps c main_arg6 = m ((c : Thread nD τ).loc main_arg6) := by
  unfold Pipeline.afterTail₀
  rw [StableHlo.after_of_forall_not_mem (b := Proc.devRef .tc main_arg6) _ _ (List.forall_iff_forall_mem.mp (by
      simp only [hostOps1, hostOps1_1, hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No operation after the launch writes argument 7, and the launch stages no block of it: it ends as it was. -/
theorem W_main_arg7 (dats : (p : Fin _) → (c : Dev nD) → Dat τ (Elt F) Unit ℕ (UR sig nD τ) ℕ (cfgs p) c) (c : Dev nD) :
    Pipeline.afterTail₀ cfgs dats 0 (V0 m) tailOps c main_arg7 = m ((c : Thread nD τ).loc main_arg7) := by
  unfold Pipeline.afterTail₀
  rw [StableHlo.after_of_forall_not_mem (b := Proc.devRef .tc main_arg7) _ _ (List.forall_iff_forall_mem.mp (by
      simp only [hostOps1, hostOps1_1, hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

end Cert.KernelIdeal.Fr

end
-- ==== Proof.KI.Body.lean ====
/-
  One grid point of the idealized kernel, as a triple over its eight staging buffers. The body reads
  the row block of x, the three weight matrices and the three bias rows, runs its counted loop over
  the eight column chunks of the second layer carrying the (256, 8) accumulator, adds the last bias,
  applies the leaky rectifier and stores the whole (256, 8) output block once. The seven input buffers
  are handed back as they were; the output buffer ends at the one store's value, whatever it held.
  That value is not written out here: it is the witness the run of the body finds.
-/
import proofs.«108501_j38474317038072_2_alg».proof.Proof.Gen.KernelIdeal.Launch
import proofs.«108501_j38474317038072_2_alg».proof.Proof.Gen.KernelIdeal.Skeleton
import proofs.«108501_j38474317038072_2_alg».proof.Proof.Gen.KernelIdeal.Loops
import proofs.«108501_j38474317038072_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The one store's rectangle: the whole (256, 8) output block. -/
abbrev rOut : Rect S256x8 := Rect.unit (s := S256x8) ![0, 0] S256x8.size inb_S256x8_S256x8_0_0

/-- It covers the block. -/
theorem coverOut (p0 : Vec F S256x8 .f32) (y : S256x8.Idx) :
    ∃ pc ∈ ([⟨rOut, p0⟩] : List (View.Piece (Elt F) S256x8 .f32)), y ∈ pc.1.set :=
  View.cover_of_tiled [⟨rOut, p0⟩] S256x8.size (by rfl) y

set_option maxHeartbeats 4000000 in
/-- The body's triple at any point, on any whole staging buffers holding `x0 … x6`: it runs to the
    continuation with the inputs as they were and the output block at the value found. -/
@[irreducible] def bodyRun (c : Dev nD) (i : grid0.Coords) (arg1 : Memref sig .tc .vmem S256x128 .f32) (harg1 : arg1.IsWhole) (arg2 : Memref sig .tc .vmem S128x4096 .bf16) (harg2 : arg2.IsWhole) (arg3 : Memref sig .tc .vmem S1x4096 .f32) (harg3 : arg3.IsWhole) (arg4 : Memref sig .tc .vmem S4096x4096 .bf16) (harg4 : arg4.IsWhole) (arg5 : Memref sig .tc .vmem S1x4096 .f32) (harg5 : arg5.IsWhole) (arg6 : Memref sig .tc .vmem S4096x8 .bf16) (harg6 : arg6.IsWhole) (arg7 : Memref sig .tc .vmem S1x8 .f32) (harg7 : arg7.IsWhole) (arg8 : Memref sig .tc .vmem S256x8 .f32) (harg8 : arg8.IsWhole)
    (x0 : Vec F S256x128 .f32) (x1 : Vec F S128x4096 .bf16) (x2 : Vec F S1x4096 .f32) (x3 : Vec F S4096x4096 .bf16) (x4 : Vec F S1x4096 .f32) (x5 : Vec F S4096x8 .bf16) (x6 : Vec F S1x8 .f32) :
    { o : Vec F S256x8 .f32 // ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare o) -∗ K ⟨⟩))
          ⊢ wp frame (wpE (defs₀ (F := F)) Variants.none c none) E (cc0__mlp_kernel i arg1 harg1 arg2 harg2 arg3 harg3 arg4 harg4 arg5 harg5 arg6 harg6 arg7 harg7 arg8 harg8) K } := by
  refine ⟨?_, fun E K => ?run⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; isplitr; swap; · iexact H7
    ipureintro
    exact View.read_writes_eq_canon _ _ _ (coverOut (F := F) _)

end Cert.KernelIdeal.Fr

end
-- ==== Proof.KI.Run.lean ====
/-
  The idealized kernel's run. Each window's block at a grid point is read off its array as the launch
  finds it; every input window's staging buffer holds that block at every point (the six resident
  operands are fetched once, at the first point, and their block index never moves); the output
  window's buffer is written whole at every point and flushed. With the body's triple at a generic
  point this gives the launch's obligation, the run of @main around the launch, and from it that every
  argument array ends as it began.
-/
import proofs.«108501_j38474317038072_2_alg».proof.Proof.KI.Main
import proofs.«108501_j38474317038072_2_alg».proof.Proof.KI.Body

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Each window's current staging buffer at point `t`, and that it is a whole buffer. -/
abbrev ms0_0 (t : Fin cfg0.N) : Memref sig .tc .vmem S256x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4096 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x4096 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x4096 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4096x8 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x8 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x8 .f32 := win0_7.stage (cfg0.slots t 7)
abbrev hs0_7 (t : Fin cfg0.N) : (ms0_7 t).IsWhole := hstage0_7 ((cfg0.slots t 7).cast nbuf0_7)

/-- What the body leaves in the output block at point `t`: the value its run finds, at the point's
    staging buffers and input blocks. -/
def outAt (c : Dev nD) (t : Fin cfg0.N) : Vec F S256x8 .f32 :=
  (bodyRun (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t) (iblk m c 6 t)).1

/-! ## The launch's proof data -/

/-- The arrays as the launch finds them; after the body at point `t` each input's buffer at its block and
    the output's at `outAt`; nothing else held, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  unfold outAt
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((bodyRun (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t) (iblk m c 6 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; at the end every staged array holds what the launch's
    write-backs leave and every other unscoped buffer what the later host operations compute. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- From such a run: every argument array ends as it began. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨
      (((h c).1 0).trans (((dats 0 c).arrAt_in 0 rfl _).trans ((hA c 0).trans (V_main_arg0 m c)))),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c)),
      (((h c).2 main_arg4 (Pipeline.mem_restRefs_of main_arg4 (by decide) (by decide))).trans (W_main_arg4 m dats c)),
      (((h c).2 main_arg5 (Pipeline.mem_restRefs_of main_arg5 (by decide) (by decide))).trans (W_main_arg5 m dats c)),
      (((h c).2 main_arg6 (Pipeline.mem_restRefs_of main_arg6 (by decide) (by decide))).trans (W_main_arg6 m dats c)),
      (((h c).2 main_arg7 (Pipeline.mem_restRefs_of main_arg7 (by decide) (by decide))).trans (W_main_arg7 m dats c))⟩) h

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.KernelIdeal.Fr

end
-- ==== Proof.Mlp.lean ====
/-
  The three-layer perceptron at one row, over the extended reals, and the one law that joins the two
  programs. A layer is: the sum over the input units of input times weight, plus the bias, through the
  leaky rectifier (the value itself where it is at least zero, the slope 0x3C23D70A times it elsewhere).
  The kernel computes the last contraction, over the 4096 units of the second hidden layer, in eight
  chunks of 512 units each; the reference in one. A sum over `Fin 4096` is the sum over the eight chunks
  of the sums over each chunk's 512 units, unit `512·n + k` being unit `k` of chunk `n`: addition of
  extended reals is commutative and associative, so no finiteness is needed.
-/
import Idealize.ShloMosaic.PureOps.Ideal
import Idealize.ShloMosaic.PureOps.Ideal.Laws
import Idealize.ShloMosaic.Lib.ValueIdx

noncomputable section

namespace Cert.Proof.Mlp

open Idealize.ShloMosaic
open scoped BigOperators

/-- The leaky rectifier: `x` where `x ≥ 0`, the slope times `x` elsewhere; the comparison, the choice
    and the two constants as both programs spell them. -/
def lr (x : EReal) : EReal :=
  Scalar.select (FloatOps.cmpf (F := Ideal) (φ := .f32) .oge x (Ideal.ofBits .f32 0x00000000#32)) x
    (Ideal.ofBits .f32 0x3C23D70A#32 * x)

/-- Unit `i` of the first hidden layer, from one row `x` of the input. -/
def hid1 (x : Fin 128 → EReal) (W1 : Fin 128 → Fin 4096 → EReal) (b1 : Fin 4096 → EReal) (i : Fin 4096) : EReal :=
  lr ((∑ z : Fin 128, x z * W1 z i) + b1 i)

/-- Unit `h` of the second hidden layer. -/
def hid2 (x : Fin 128 → EReal) (W1 : Fin 128 → Fin 4096 → EReal) (b1 : Fin 4096 → EReal)
    (W2 : Fin 4096 → Fin 4096 → EReal) (b2 : Fin 4096 → EReal) (h : Fin 4096) : EReal :=
  lr ((∑ i : Fin 4096, hid1 x W1 b1 i * W2 i h) + b2 h)

/-- Coefficient `j` of the row. -/
def coeff (x : Fin 128 → EReal) (W1 : Fin 128 → Fin 4096 → EReal) (b1 : Fin 4096 → EReal)
    (W2 : Fin 4096 → Fin 4096 → EReal) (b2 : Fin 4096 → EReal) (W3 : Fin 4096 → Fin 8 → EReal) (b3 : Fin 8 → EReal)
    (j : Fin 8) : EReal :=
  lr ((∑ h : Fin 4096, hid2 x W1 b1 W2 b2 h * W3 h j) + b3 j)

/-- Unit `k` of chunk `n` is unit `512·n + k`. -/
def chunkIx (n : Fin 8) (k : Fin 512) : Fin 4096 :=
  ⟨512 * n.val + k.val, by have := n.isLt; have := k.isLt; omega⟩

@[simp] theorem chunkIx_val (n : Fin 8) (k : Fin 512) : (chunkIx n k).val = 512 * n.val + k.val := rfl

/-- A sum over the 4096 units is the sum over the eight chunks of the sums over each chunk. -/
theorem sum_chunks {M : Type*} [AddCommMonoid M] (f : Fin 4096 → M) :
    ∑ h : Fin 4096, f h = ∑ n : Fin 8, ∑ k : Fin 512, f (chunkIx n k) := by
  have e : ∑ q : Fin 8 × Fin 512, f (finProdFinEquiv q) = ∑ h : Fin 4096, f h :=
    Equiv.sum_comp (finProdFinEquiv (m := 8) (n := 512)) f
  rw [← e, Fintype.sum_prod_type]
  refine Finset.sum_congr rfl fun n _ => Finset.sum_congr rfl fun k _ => congrArg f (Fin.ext ?_)
  show k.val + 512 * n.val = 512 * n.val + k.val
  omega

/-- The contraction of the third layer, chunk by chunk. -/
theorem coeff_chunks (x : Fin 128 → EReal) (W1 : Fin 128 → Fin 4096 → EReal) (b1 : Fin 4096 → EReal)
    (W2 : Fin 4096 → Fin 4096 → EReal) (b2 : Fin 4096 → EReal) (W3 : Fin 4096 → Fin 8 → EReal) (b3 : Fin 8 → EReal)
    (j : Fin 8) :
    coeff x W1 b1 W2 b2 W3 b3 j
      = lr ((∑ n : Fin 8, ∑ k : Fin 512, hid2 x W1 b1 W2 b2 (chunkIx n k) * W3 (chunkIx n k) j) + b3 j) := by
  unfold coeff
  rw [sum_chunks]

end Cert.Proof.Mlp

end
-- ==== Proof.KI.Payload.lean ====
/-
  The idealized body's arithmetic, read entry by entry. For the row block `x0` of 256 rows, the first
  weight matrix `w1` and bias row `b1`, entry (p, i) of the first hidden block is unit `i` of the first
  layer at row `p`. For a chunk — 512 columns `v31` of the second weight matrix, the matching 512 entries
  `v34` of its bias row, the matching 512 rows `v46` of the third weight matrix — one trip of the loop adds
  to entry (p, j) of the accumulator the sum over the chunk's 512 units of the second layer's unit times
  the third weight. After the loop the last bias row is added and the rectifier applied. A change of
  float format is the identity here and a product into a zero matrix is the plain sum of products.
-/
import proofs.«108501_j38474317038072_2_alg».proof.Proof.Gen.KernelIdeal.Skeleton
import proofs.«108501_j38474317038072_2_alg».proof.Proof.Mlp
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Pay

open Idealize.ShloMosaic Idealize.ShloMosaic.ValueIdx Cert.KernelIdeal Cert.KernelIdeal.Gen Cert.Proof.Mlp
open scoped BigOperators

/-! ### The (256, 128) × (128, 4096) product -/

theorem lhs1_0 (i : S256x4096.Idx) (q : dot_S256x128_S128x4096_S256x4096_1_0_0_1_n_n.contr.Idx) : (dot_S256x128_S128x4096_S256x4096_1_0_0_1_n_n.lhsIdx i q 0).val = (i 0).val := by
  unfold DotDims.lhsIdx
  rw [dif_neg (show ¬(0 : Fin S256x128.rank) ∈ dot_S256x128_S128x4096_S256x4096_1_0_0_1_n_n.lhsBatch by decide), dif_pos (show (0 : Fin S256x128.rank) ∈ dot_S256x128_S128x4096_S256x4096_1_0_0_1_n_n.lhsNonContracting by decide)]
  rfl
theorem lhs1_1 (i : S256x4096.Idx) (q : dot_S256x128_S128x4096_S256x4096_1_0_0_1_n_n.contr.Idx) : (dot_S256x128_S128x4096_S256x4096_1_0_0_1_n_n.lhsIdx i q 1).val = (q ⟨0, by decide⟩).val :=
  dot_S256x128_S128x4096_S256x4096_1_0_0_1_n_n.lhsIdx_val_of_single rfl i q
theorem rhs1_0 (i : S256x4096.Idx) (q : dot_S256x128_S128x4096_S256x4096_1_0_0_1_n_n.contr.Idx) : (dot_S256x128_S128x4096_S256x4096_1_0_0_1_n_n.rhsIdx i q 0).val = (q ⟨0, by decide⟩).val :=
  dot_S256x128_S128x4096_S256x4096_1_0_0_1_n_n.rhsIdx_val_of_single rfl i q
theorem rhs1_1 (i : S256x4096.Idx) (q : dot_S256x128_S128x4096_S256x4096_1_0_0_1_n_n.contr.Idx) : (dot_S256x128_S128x4096_S256x4096_1_0_0_1_n_n.rhsIdx i q 1).val = (i 1).val := by
  unfold DotDims.rhsIdx
  rw [dif_neg (show ¬(1 : Fin S128x4096.rank) ∈ dot_S256x128_S128x4096_S256x4096_1_0_0_1_n_n.rhsBatch by decide), dif_pos (show (1 : Fin S128x4096.rank) ∈ dot_S256x128_S128x4096_S256x4096_1_0_0_1_n_n.rhsNonContracting by decide)]
  rfl

/-- Into a zero accumulator, entry (p, q) of the product is the sum over the 128 inner units. -/
theorem mm1 (a : FVec Ideal S256x128 .bf16) (b : FVec Ideal S128x4096 .bf16) (p : Fin 256) (q : Fin 4096) :
    matmul dot_S256x128_S128x4096_S256x4096_1_0_0_1_n_n none a b (constant (F := Ideal) S256x4096 .f32 0x00000000#32) (ix2 p q)
      = ∑ k : Fin 128, a (ix2 p k) * b (ix2 k q) := by
  simp only [matmul]
  rw [Ideal.matmul_constant_zero_apply, ← Equiv.sum_comp (ValueIdx.contrEquiv1 dot_S256x128_S128x4096_S256x4096_1_0_0_1_n_n 128 rfl rfl).symm]
  refine Finset.sum_congr rfl fun k _ => ?_
  have hk := ValueIdx.contrEquiv1_symm_val dot_S256x128_S128x4096_S256x4096_1_0_0_1_n_n 128 rfl rfl k
  have el : dot_S256x128_S128x4096_S256x4096_1_0_0_1_n_n.lhsIdx (ix2 p q) ((ValueIdx.contrEquiv1 dot_S256x128_S128x4096_S256x4096_1_0_0_1_n_n 128 rfl rfl).symm k) = ix2 p k := funext fun a => Fin.ext (by
    match a with
    | ⟨0, _⟩ => exact lhs1_0 _ _
    | ⟨1, _⟩ => exact (lhs1_1 _ _).trans hk)
  have er : dot_S256x128_S128x4096_S256x4096_1_0_0_1_n_n.rhsIdx (ix2 p q) ((ValueIdx.contrEquiv1 dot_S256x128_S128x4096_S256x4096_1_0_0_1_n_n 128 rfl rfl).symm k) = ix2 k q := funext fun a => Fin.ext (by
    match a with
    | ⟨0, _⟩ => exact (rhs1_0 _ _).trans hk
    | ⟨1, _⟩ => exact rhs1_1 _ _)
  rw [el, er]

/-! ### The (256, 4096) × (4096, 512) product -/

theorem lhs2_0 (i : S256x512.Idx) (q : dot_S256x4096_S4096x512_S256x512_1_0_0_1_n_n.contr.Idx) : (dot_S256x4096_S4096x512_S256x512_1_0_0_1_n_n.lhsIdx i q 0).val = (i 0).val := by
  unfold DotDims.lhsIdx
  rw [dif_neg (show ¬(0 : Fin S256x4096.rank) ∈ dot_S256x4096_S4096x512_S256x512_1_0_0_1_n_n.lhsBatch by decide), dif_pos (show (0 : Fin S256x4096.rank) ∈ dot_S256x4096_S4096x512_S256x512_1_0_0_1_n_n.lhsNonContracting by decide)]
  rfl
theorem lhs2_1 (i : S256x512.Idx) (q : dot_S256x4096_S4096x512_S256x512_1_0_0_1_n_n.contr.Idx) : (dot_S256x4096_S4096x512_S256x512_1_0_0_1_n_n.lhsIdx i q 1).val = (q ⟨0, by decide⟩).val :=
  dot_S256x4096_S4096x512_S256x512_1_0_0_1_n_n.lhsIdx_val_of_single rfl i q
theorem rhs2_0 (i : S256x512.Idx) (q : dot_S256x4096_S4096x512_S256x512_1_0_0_1_n_n.contr.Idx) : (dot_S256x4096_S4096x512_S256x512_1_0_0_1_n_n.rhsIdx i q 0).val = (q ⟨0, by decide⟩).val :=
  dot_S256x4096_S4096x512_S256x512_1_0_0_1_n_n.rhsIdx_val_of_single rfl i q
theorem rhs2_1 (i : S256x512.Idx) (q : dot_S256x4096_S4096x512_S256x512_1_0_0_1_n_n.contr.Idx) : (dot_S256x4096_S4096x512_S256x512_1_0_0_1_n_n.rhsIdx i q 1).val = (i 1).val := by
  unfold DotDims.rhsIdx
  rw [dif_neg (show ¬(1 : Fin S4096x512.rank) ∈ dot_S256x4096_S4096x512_S256x512_1_0_0_1_n_n.rhsBatch by decide), dif_pos (show (1 : Fin S4096x512.rank) ∈ dot_S256x4096_S4096x512_S256x512_1_0_0_1_n_n.rhsNonContracting by decide)]
  rfl

/-- Into a zero accumulator, entry (p, q) of the product is the sum over the 4096 inner units. -/
theorem mm2 (a : FVec Ideal S256x4096 .bf16) (b : FVec Ideal S4096x512 .bf16) (p : Fin 256) (q : Fin 512) :
    matmul dot_S256x4096_S4096x512_S256x512_1_0_0_1_n_n none a b (constant (F := Ideal) S256x512 .f32 0x00000000#32) (ix2 p q)
      = ∑ k : Fin 4096, a (ix2 p k) * b (ix2 k q) := by
  simp only [matmul]
  rw [Ideal.matmul_constant_zero_apply, ← Equiv.sum_comp (ValueIdx.contrEquiv1 dot_S256x4096_S4096x512_S256x512_1_0_0_1_n_n 4096 rfl rfl).symm]
  refine Finset.sum_congr rfl fun k _ => ?_
  have hk := ValueIdx.contrEquiv1_symm_val dot_S256x4096_S4096x512_S256x512_1_0_0_1_n_n 4096 rfl rfl k
  have el : dot_S256x4096_S4096x512_S256x512_1_0_0_1_n_n.lhsIdx (ix2 p q) ((ValueIdx.contrEquiv1 dot_S256x4096_S4096x512_S256x512_1_0_0_1_n_n 4096 rfl rfl).symm k) = ix2 p k := funext fun a => Fin.ext (by
    match a with
    | ⟨0, _⟩ => exact lhs2_0 _ _
    | ⟨1, _⟩ => exact (lhs2_1 _ _).trans hk)
  have er : dot_S256x4096_S4096x512_S256x512_1_0_0_1_n_n.rhsIdx (ix2 p q) ((ValueIdx.contrEquiv1 dot_S256x4096_S4096x512_S256x512_1_0_0_1_n_n 4096 rfl rfl).symm k) = ix2 k q := funext fun a => Fin.ext (by
    match a with
    | ⟨0, _⟩ => exact (rhs2_0 _ _).trans hk
    | ⟨1, _⟩ => exact rhs2_1 _ _)
  rw [el, er]

/-! ### The (256, 512) × (512, 8) product -/

theorem lhs3_0 (i : S256x8.Idx) (q : dot_S256x512_S512x8_S256x8_1_0_0_1_n_n.contr.Idx) : (dot_S256x512_S512x8_S256x8_1_0_0_1_n_n.lhsIdx i q 0).val = (i 0).val := by
  unfold DotDims.lhsIdx
  rw [dif_neg (show ¬(0 : Fin S256x512.rank) ∈ dot_S256x512_S512x8_S256x8_1_0_0_1_n_n.lhsBatch by decide), dif_pos (show (0 : Fin S256x512.rank) ∈ dot_S256x512_S512x8_S256x8_1_0_0_1_n_n.lhsNonContracting by decide)]
  rfl
theorem lhs3_1 (i : S256x8.Idx) (q : dot_S256x512_S512x8_S256x8_1_0_0_1_n_n.contr.Idx) : (dot_S256x512_S512x8_S256x8_1_0_0_1_n_n.lhsIdx i q 1).val = (q ⟨0, by decide⟩).val :=
  dot_S256x512_S512x8_S256x8_1_0_0_1_n_n.lhsIdx_val_of_single rfl i q
theorem rhs3_0 (i : S256x8.Idx) (q : dot_S256x512_S512x8_S256x8_1_0_0_1_n_n.contr.Idx) : (dot_S256x512_S512x8_S256x8_1_0_0_1_n_n.rhsIdx i q 0).val = (q ⟨0, by decide⟩).val :=
  dot_S256x512_S512x8_S256x8_1_0_0_1_n_n.rhsIdx_val_of_single rfl i q
theorem rhs3_1 (i : S256x8.Idx) (q : dot_S256x512_S512x8_S256x8_1_0_0_1_n_n.contr.Idx) : (dot_S256x512_S512x8_S256x8_1_0_0_1_n_n.rhsIdx i q 1).val = (i 1).val := by
  unfold DotDims.rhsIdx
  rw [dif_neg (show ¬(1 : Fin S512x8.rank) ∈ dot_S256x512_S512x8_S256x8_1_0_0_1_n_n.rhsBatch by decide), dif_pos (show (1 : Fin S512x8.rank) ∈ dot_S256x512_S512x8_S256x8_1_0_0_1_n_n.rhsNonContracting by decide)]
  rfl

/-- Into a zero accumulator, entry (p, q) of the product is the sum over the 512 inner units. -/
theorem mm3 (a : FVec Ideal S256x512 .bf16) (b : FVec Ideal S512x8 .bf16) (p : Fin 256) (q : Fin 8) :
    matmul dot_S256x512_S512x8_S256x8_1_0_0_1_n_n none a b (constant (F := Ideal) S256x8 .f32 0x00000000#32) (ix2 p q)
      = ∑ k : Fin 512, a (ix2 p k) * b (ix2 k q) := by
  simp only [matmul]
  rw [Ideal.matmul_constant_zero_apply, ← Equiv.sum_comp (ValueIdx.contrEquiv1 dot_S256x512_S512x8_S256x8_1_0_0_1_n_n 512 rfl rfl).symm]
  refine Finset.sum_congr rfl fun k _ => ?_
  have hk := ValueIdx.contrEquiv1_symm_val dot_S256x512_S512x8_S256x8_1_0_0_1_n_n 512 rfl rfl k
  have el : dot_S256x512_S512x8_S256x8_1_0_0_1_n_n.lhsIdx (ix2 p q) ((ValueIdx.contrEquiv1 dot_S256x512_S512x8_S256x8_1_0_0_1_n_n 512 rfl rfl).symm k) = ix2 p k := funext fun a => Fin.ext (by
    match a with
    | ⟨0, _⟩ => exact lhs3_0 _ _
    | ⟨1, _⟩ => exact (lhs3_1 _ _).trans hk)
  have er : dot_S256x512_S512x8_S256x8_1_0_0_1_n_n.rhsIdx (ix2 p q) ((ValueIdx.contrEquiv1 dot_S256x512_S512x8_S256x8_1_0_0_1_n_n 512 rfl rfl).symm k) = ix2 k q := funext fun a => Fin.ext (by
    match a with
    | ⟨0, _⟩ => exact (rhs3_0 _ _).trans hk
    | ⟨1, _⟩ => exact rhs3_1 _ _)
  rw [el, er]

/-! ### Bias rows -/

/-- A one-row matrix broadcast down S256x4096's 256 rows reads its row 0. -/
theorem rowBcast4096 (v : FVec Ideal S1x4096 .f32) (h : S1x4096.Broadcasts S256x4096) (p : Fin 256) (i : Fin 4096) :
    broadcastTo S256x4096 v h (ix2 p i) = v (ix2 0 i) :=
  broadcastTo_apply v h (ix2 p i) (ix2 0 i) (fun a => by
    match a with
    | ⟨0, _⟩ => show (0 : Nat) = if (1 : Nat) = 1 then 0 else _; rw [if_pos rfl]
    | ⟨1, _⟩ => show i.val = if (4096 : Nat) = 1 then 0 else i.val; rw [if_neg (by decide)])

/-- A one-row matrix broadcast down S256x512's 256 rows reads its row 0. -/
theorem rowBcast512 (v : FVec Ideal S1x512 .f32) (h : S1x512.Broadcasts S256x512) (p : Fin 256) (i : Fin 512) :
    broadcastTo S256x512 v h (ix2 p i) = v (ix2 0 i) :=
  broadcastTo_apply v h (ix2 p i) (ix2 0 i) (fun a => by
    match a with
    | ⟨0, _⟩ => show (0 : Nat) = if (1 : Nat) = 1 then 0 else _; rw [if_pos rfl]
    | ⟨1, _⟩ => show i.val = if (512 : Nat) = 1 then 0 else i.val; rw [if_neg (by decide)])

/-- A one-row matrix broadcast down S256x8's 256 rows reads its row 0. -/
theorem rowBcast8 (v : FVec Ideal S1x8 .f32) (h : S1x8.Broadcasts S256x8) (p : Fin 256) (i : Fin 8) :
    broadcastTo S256x8 v h (ix2 p i) = v (ix2 0 i) :=
  broadcastTo_apply v h (ix2 p i) (ix2 0 i) (fun a => by
    match a with
    | ⟨0, _⟩ => show (0 : Nat) = if (1 : Nat) = 1 then 0 else _; rw [if_pos rfl]
    | ⟨1, _⟩ => show i.val = if (8 : Nat) = 1 then 0 else i.val; rw [if_neg (by decide)])

/-! ### The body's values as vectors -/

/-- The leaky rectifier on a whole vector, as the body spells it. -/
def lrV {s : Shape} (v : FVec Ideal s .f32) : FVec Ideal s .f32 :=
  select (cmpf .oge v (broadcast s (Scalar.ofBits (F := Ideal) .f32 0x00000000#32))) v
    (mulf (broadcast s (Scalar.ofBits (F := Ideal) .f32 0x3C23D70A#32)) v)

theorem lrV_apply {s : Shape} (v : FVec Ideal s .f32) (i : s.Idx) : lrV v i = lr (v i) := rfl

/-- The first hidden block: 256 rows by 4096 units. -/
def h1V (x0 : Vec Ideal S256x128 .f32) (w1 : Vec Ideal S128x4096 .bf16) (b1 : Vec Ideal S1x4096 .f32) : FVec Ideal S256x4096 .f32 :=
  lrV (addf (matmul dot_S256x128_S128x4096_S256x4096_1_0_0_1_n_n none (truncf .bf16 x0 bitsLt_bf16_f32 : FVec Ideal S256x128 .bf16) (shapeCast S128x4096 w1 shapeCasts_S128x4096_S128x4096 : FVec Ideal S128x4096 .bf16) (constant (F := Ideal) S256x4096 .f32 0x00000000#32))
    (broadcastTo S256x4096 (shapeCast S1x4096 b1 shapeCasts_S1x4096_S1x4096 : FVec Ideal S1x4096 .f32) broadcasts_S1x4096_S256x4096))

/-- One chunk of the second hidden block: 256 rows by the chunk's 512 units. -/
def h2V (h1 : FVec Ideal S256x4096 .f32) (v31 : Vec Ideal S4096x512 .bf16) (v34 : Vec Ideal S1x512 .f32) : FVec Ideal S256x512 .f32 :=
  lrV (addf (matmul dot_S256x4096_S4096x512_S256x512_1_0_0_1_n_n none (truncf .bf16 h1 bitsLt_bf16_f32 : FVec Ideal S256x4096 .bf16) (shapeCast S4096x512 v31 shapeCasts_S4096x512_S4096x512 : FVec Ideal S4096x512 .bf16) (constant (F := Ideal) S256x512 .f32 0x00000000#32))
    (broadcastTo S256x512 (shapeCast S1x512 v34 shapeCasts_S1x512_S1x512 : FVec Ideal S1x512 .f32) broadcasts_S1x512_S256x512))

/-- One trip's yield is the accumulator plus the chunk's product with its rows of the third weight matrix. -/
theorem pay2_eq (x0 : Vec Ideal S256x128 .f32) (w1 : Vec Ideal S128x4096 .bf16) (b1 : Vec Ideal S1x4096 .f32) (acc : FVec Ideal S256x8 .f32)
    (v31 : Vec Ideal S4096x512 .bf16) (v34 : Vec Ideal S1x512 .f32) (v46 : Vec Ideal S512x8 .bf16) :
    k0_pay2 (F := Ideal) x0 w1 b1 acc v31 v34 v46
      = addf acc (matmul dot_S256x512_S512x8_S256x8_1_0_0_1_n_n none (truncf .bf16 (h2V (h1V x0 w1 b1) v31 v34) bitsLt_bf16_f32 : FVec Ideal S256x512 .bf16)
          (shapeCast S512x8 v46 shapeCasts_S512x8_S512x8 : FVec Ideal S512x8 .bf16) (constant (F := Ideal) S256x8 .f32 0x00000000#32)) := rfl

/-- After the loop: the last bias row added, through the rectifier. -/
theorem pay3_eq (v17 : FVec Ideal S256x8 .f32) (b3 : Vec Ideal S1x8 .f32) :
    k0_pay3 (F := Ideal) v17 b3 = lrV (addf v17 (broadcastTo S256x8 (shapeCast S1x8 b3 shapeCasts_S1x8_S1x8 : FVec Ideal S1x8 .f32) broadcasts_S1x8_S256x8)) := rfl

/-! ### Entry by entry -/

theorem h1V_at (x0 : Vec Ideal S256x128 .f32) (w1 : Vec Ideal S128x4096 .bf16) (b1 : Vec Ideal S1x4096 .f32) (p : Fin 256) (i : Fin 4096) :
    h1V x0 w1 b1 (ix2 p i) = hid1 (fun z => x0 (ix2 p z)) (fun z i => w1 (ix2 z i)) (fun i => b1 (ix2 0 i)) i := by
  unfold h1V hid1
  rw [lrV_apply, addf_apply, mm1, rowBcast4096, shapeCast_self, shapeCast_self]
  rfl

theorem h2V_at (h1 : FVec Ideal S256x4096 .f32) (v31 : Vec Ideal S4096x512 .bf16) (v34 : Vec Ideal S1x512 .f32) (p : Fin 256) (k : Fin 512) :
    h2V h1 v31 v34 (ix2 p k) = lr ((∑ i : Fin 4096, h1 (ix2 p i) * v31 (ix2 i k)) + v34 (ix2 0 k)) := by
  unfold h2V
  rw [lrV_apply, addf_apply, mm2, rowBcast512, shapeCast_self, shapeCast_self]
  rfl

/-- One trip at entry (p, j). -/
theorem pay2_at (x0 : Vec Ideal S256x128 .f32) (w1 : Vec Ideal S128x4096 .bf16) (b1 : Vec Ideal S1x4096 .f32) (acc : FVec Ideal S256x8 .f32)
    (v31 : Vec Ideal S4096x512 .bf16) (v34 : Vec Ideal S1x512 .f32) (v46 : Vec Ideal S512x8 .bf16) (p : Fin 256) (j : Fin 8) :
    k0_pay2 (F := Ideal) x0 w1 b1 acc v31 v34 v46 (ix2 p j)
      = acc (ix2 p j) + ∑ k : Fin 512,
          lr ((∑ i : Fin 4096, hid1 (fun z => x0 (ix2 p z)) (fun z i => w1 (ix2 z i)) (fun i => b1 (ix2 0 i)) i * v31 (ix2 i k)) + v34 (ix2 0 k))
            * v46 (ix2 k j) := by
  rw [pay2_eq, addf_apply, mm3, shapeCast_self]
  refine congrArg (acc (ix2 p j) + ·) (Finset.sum_congr rfl fun k _ => ?_)
  show h2V (h1V x0 w1 b1) v31 v34 (ix2 p k) * v46 (ix2 k j) = _
  rw [h2V_at]
  simp only [h1V_at]

/-- The final value at entry (p, j). -/
theorem pay3_at (v17 : FVec Ideal S256x8 .f32) (b3 : Vec Ideal S1x8 .f32) (p : Fin 256) (j : Fin 8) :
    k0_pay3 (F := Ideal) v17 b3 (ix2 p j) = lr (v17 (ix2 p j) + b3 (ix2 0 j)) := by
  rw [pay3_eq, lrV_apply, addf_apply, rowBcast8, shapeCast_self]

end Cert.KernelIdeal.Pay

end
-- ==== Proof.KI.Loop.lean ====
/-
  The counted loop of the idealized body. One trip, at trip index `k`, loads columns `512·k … 512·k + 511`
  of the second weight matrix, the same entries of its bias row and the same rows of the third weight
  matrix, and yields the accumulator plus that chunk's contribution. So after `n` trips entry (p, j) of
  the accumulator is its initial value plus the sum over the first `n` chunks of: the sum over the
  chunk's 512 units of the second layer's unit at row `p` times the third weight at (unit, j).
-/
import proofs.«108501_j38474317038072_2_alg».proof.Proof.Gen.KernelIdeal.Loops
import proofs.«108501_j38474317038072_2_alg».proof.Proof.KI.Payload
import Idealize.ShloMosaic.Lib.Pipeline.FrameBody

set_option maxRecDepth 16384

noncomputable section

namespace Cert.KernelIdeal.Pay

open Idealize.ShloMosaic Idealize.ShloMosaic.ValueIdx Idealize.SL.Sem Cert.KernelIdeal Cert.KernelIdeal.Gen Cert.Proof.Mlp
open scoped BigOperators

/-- The loop makes eight trips. -/
theorem trips8 : k0_t1_loop.trips = 8 := by decide

/-- A trip index as a chunk number. -/
def tripN (k : Fin k0_t1_loop.trips) : Fin 8 := ⟨k.val, trips8 ▸ k.isLt⟩

section AnyF
variable {F : FTy → Type} [FloatOps F]

/-- What one trip yields: the body's arithmetic of the carried value and the trip's three loads. -/
theorem tripR_eq (𝒱 : Variants) (c : Dev nD) (bd : Option 𝒱.V) (i : grid0.Coords) (arg1 : Memref sig .tc .vmem S256x128 .f32) (harg1 : arg1.IsWhole) (arg2 : Memref sig .tc .vmem S128x4096 .bf16) (harg2 : arg2.IsWhole) (arg3 : Memref sig .tc .vmem S1x4096 .f32) (harg3 : arg3.IsWhole) (arg4 : Memref sig .tc .vmem S4096x4096 .bf16) (harg4 : arg4.IsWhole) (arg5 : Memref sig .tc .vmem S1x4096 .f32) (harg5 : arg5.IsWhole) (arg6 : Memref sig .tc .vmem S4096x8 .bf16) (harg6 : arg6.IsWhole) (arg7 : Memref sig .tc .vmem S1x8 .f32) (harg7 : arg7.IsWhole) (arg8 : Memref sig .tc .vmem S256x8 .f32) (harg8 : arg8.IsWhole)
    (v0 : Vec F S256x128 .f32) (v2 : Vec F S128x4096 .bf16) (v5 : Vec F S1x4096 .f32)
    (X4 : BufTy.Contents (Elt F) arg4.view.ty) (X5 : BufTy.Contents (Elt F) arg5.view.ty) (X6 : BufTy.Contents (Elt F) arg6.view.ty)
    (k : Fin k0_t1_loop.trips) (acc : FVec F S256x8 .f32) :
    tripR_k0_t1 (F := F) 𝒱 c bd i arg1 harg1 arg2 harg2 arg3 harg3 arg4 harg4 arg5 harg5 arg6 harg6 arg7 harg7 arg8 harg8 v0 v2 v5 X4 X5 X6 k acc
      = k0_pay2 v0 v2 v5 acc
          (View.readAt (Elt F) arg4.view (Rect.unit (s := S4096x4096) (k0_off1 k) S4096x512.size (k0_off1_inb k)).toLoadRect X4)
          (View.readAt (Elt F) arg5.view (Rect.unit (s := S1x4096) (k0_off2 k) S1x512.size (k0_off2_inb k)).toLoadRect X5)
          (View.readAt (Elt F) arg6.view (Rect.unit (s := S4096x8) (k0_off3 k) S512x8.size (k0_off3_inb k)).toLoadRect X6) := by
  unfold tripR_k0_t1 trip_k0_t1
  rfl

/-- A load through a whole staging buffer holding `x` reads `x` through the rectangle. -/
theorem readAt_unread {S : Shape} {e : EltTy} (arg : Memref sig .tc .vmem S e) (harg : arg.IsWhole) (x : Vec F S e) (r : Rect S) :
    View.readAt (Elt F) arg.view r.toLoadRect (harg.unread x) = View.ld x r := by
  rw [View.readAt_eq_ld, harg.read_unread]

end AnyF

/-! ### The three loads of trip `k`, entry by entry -/

theorem chunkW2 (X : Vec Ideal S4096x4096 .bf16) (k : Fin k0_t1_loop.trips) (i : Fin 4096) (k' : Fin 512)
    (inb : ∀ a, k0_off1 k a + (![4096, 512] : Fin 2 → Nat) a ≤ S4096x4096.size a) :
    View.ld X (Rect.unit (s := S4096x4096) (k0_off1 k) ![4096, 512] inb) (ix2 i k') = X (ix2 i (chunkIx (tripN k) k')) := by
  show X ((Rect.unit (s := S4096x4096) (k0_off1 k) ![4096, 512] inb).emb (ix2 i k')) = _
  refine congrArg X (funext fun a => Fin.ext ?_)
  have e := k0_off1_eq k
  match a with
  | ⟨0, _⟩ => show k0_off1 k 0 + 1 * i.val = i.val; rw [e]; show 0 + 1 * i.val = i.val; omega
  | ⟨1, _⟩ => show k0_off1 k 1 + 1 * k'.val = 512 * k.val + k'.val; rw [e]; show 512 * k.val + 1 * k'.val = 512 * k.val + k'.val; omega

theorem chunkB2 (X : Vec Ideal S1x4096 .f32) (k : Fin k0_t1_loop.trips) (k' : Fin 512)
    (inb : ∀ a, k0_off2 k a + (![1, 512] : Fin 2 → Nat) a ≤ S1x4096.size a) :
    View.ld X (Rect.unit (s := S1x4096) (k0_off2 k) ![1, 512] inb) (ix2 0 k') = X (ix2 0 (chunkIx (tripN k) k')) := by
  show X ((Rect.unit (s := S1x4096) (k0_off2 k) ![1, 512] inb).emb (ix2 0 k')) = _
  refine congrArg X (funext fun a => Fin.ext ?_)
  have e := k0_off2_eq k
  match a with
  | ⟨0, _⟩ => show k0_off2 k 0 + 1 * 0 = 0; rw [e]; rfl
  | ⟨1, _⟩ => show k0_off2 k 1 + 1 * k'.val = 512 * k.val + k'.val; rw [e]; show 512 * k.val + 1 * k'.val = 512 * k.val + k'.val; omega

theorem chunkW3 (X : Vec Ideal S4096x8 .bf16) (k : Fin k0_t1_loop.trips) (k' : Fin 512) (j : Fin 8)
    (inb : ∀ a, k0_off3 k a + (![512, 8] : Fin 2 → Nat) a ≤ S4096x8.size a) :
    View.ld X (Rect.unit (s := S4096x8) (k0_off3 k) ![512, 8] inb) (ix2 k' j) = X (ix2 (chunkIx (tripN k) k') j) := by
  show X ((Rect.unit (s := S4096x8) (k0_off3 k) ![512, 8] inb).emb (ix2 k' j)) = _
  refine congrArg X (funext fun a => Fin.ext ?_)
  have e := k0_off3_eq k
  match a with
  | ⟨0, _⟩ => show k0_off3 k 0 + 1 * k'.val = 512 * k.val + k'.val; rw [e]; show 512 * k.val + 1 * k'.val = 512 * k.val + k'.val; omega
  | ⟨1, _⟩ => show k0_off3 k 1 + 1 * j.val = j.val; rw [e]; show 0 + 1 * j.val = j.val; omega

/-! ### The accumulator after `n` trips -/

section Fold
variable (𝒱 : Variants) (c : Dev nD) (bd : Option 𝒱.V) (i : grid0.Coords) (arg1 : Memref sig .tc .vmem S256x128 .f32) (harg1 : arg1.IsWhole) (arg2 : Memref sig .tc .vmem S128x4096 .bf16) (harg2 : arg2.IsWhole) (arg3 : Memref sig .tc .vmem S1x4096 .f32) (harg3 : arg3.IsWhole) (arg4 : Memref sig .tc .vmem S4096x4096 .bf16) (harg4 : arg4.IsWhole) (arg5 : Memref sig .tc .vmem S1x4096 .f32) (harg5 : arg5.IsWhole) (arg6 : Memref sig .tc .vmem S4096x8 .bf16) (harg6 : arg6.IsWhole) (arg7 : Memref sig .tc .vmem S1x8 .f32) (harg7 : arg7.IsWhole) (arg8 : Memref sig .tc .vmem S256x8 .f32) (harg8 : arg8.IsWhole)
variable (x0 : Vec Ideal S256x128 .f32) (w1 : Vec Ideal S128x4096 .bf16) (b1 : Vec Ideal S1x4096 .f32)
  (W2 : Vec Ideal S4096x4096 .bf16) (b2 : Vec Ideal S1x4096 .f32) (W3 : Vec Ideal S4096x8 .bf16)

/-- Chunk `n`'s contribution to entry (p, j): the sum over its 512 units of the second layer's unit at
    row `p` times the third weight. -/
def chunkSum (n : Fin 8) (p : Fin 256) (j : Fin 8) : EReal :=
  ∑ k' : Fin 512, hid2 (fun z => x0 (ix2 p z)) (fun z i => w1 (ix2 z i)) (fun i => b1 (ix2 0 i))
      (fun i h => W2 (ix2 i h)) (fun h => b2 (ix2 0 h)) (chunkIx n k') * W3 (ix2 (chunkIx n k') j)

/-- One trip adds its chunk's contribution. -/
theorem trip_at (k : Fin k0_t1_loop.trips) (acc : FVec Ideal S256x8 .f32) (p : Fin 256) (j : Fin 8) :
    tripR_k0_t1 (F := Ideal) 𝒱 c bd i arg1 harg1 arg2 harg2 arg3 harg3 arg4 harg4 arg5 harg5 arg6 harg6 arg7 harg7 arg8 harg8 x0 w1 b1 (harg4.unread W2) (harg5.unread b2) (harg6.unread W3) k acc (ix2 p j)
      = acc (ix2 p j) + chunkSum x0 w1 b1 W2 b2 W3 (tripN k) p j := by
  rw [tripR_eq, pay2_at]
  unfold chunkSum hid2
  refine congrArg (acc (ix2 p j) + ·) (Finset.sum_congr rfl fun k' _ => ?_)
  have e2 : ∀ i' : Fin 4096,
      View.readAt (Elt Ideal) arg4.view (Rect.unit (s := S4096x4096) (k0_off1 k) S4096x512.size (k0_off1_inb k)).toLoadRect (harg4.unread W2) (ix2 i' k')
        = W2 (ix2 i' (chunkIx (tripN k) k')) :=
    fun i' => (congrFun (readAt_unread arg4 harg4 W2 _) _).trans (chunkW2 W2 k i' k' _)
  have eb : View.readAt (Elt Ideal) arg5.view (Rect.unit (s := S1x4096) (k0_off2 k) S1x512.size (k0_off2_inb k)).toLoadRect (harg5.unread b2) (ix2 0 k')
        = b2 (ix2 0 (chunkIx (tripN k) k')) :=
    (congrFun (readAt_unread arg5 harg5 b2 _) _).trans (chunkB2 b2 k k' _)
  have e3 : View.readAt (Elt Ideal) arg6.view (Rect.unit (s := S4096x8) (k0_off3 k) S512x8.size (k0_off3_inb k)).toLoadRect (harg6.unread W3) (ix2 k' j)
        = W3 (ix2 (chunkIx (tripN k) k') j) :=
    (congrFun (readAt_unread arg6 harg6 W3 _) _).trans (chunkW3 W3 k k' j _)
  rw [eb, e3]
  simp only [e2]

/-- Chunk `m`'s contribution for a natural number `m` (nothing past the eighth). -/
def chunkSumN (p : Fin 256) (j : Fin 8) (m : Nat) : EReal :=
  if h : m < 8 then chunkSum x0 w1 b1 W2 b2 W3 ⟨m, h⟩ p j else 0

/-- After `n` trips: the initial value plus the first `n` contributions. -/
theorem st_at (init : FVec Ideal S256x8 .f32) (p : Fin 256) (j : Fin 8) : ∀ n, n ≤ 8 →
    st_k0_t1 (F := Ideal) 𝒱 c bd i arg1 harg1 arg2 harg2 arg3 harg3 arg4 harg4 arg5 harg5 arg6 harg6 arg7 harg7 arg8 harg8 x0 w1 b1 (harg4.unread W2) (harg5.unread b2) (harg6.unread W3) init n (ix2 p j)
      = init (ix2 p j) + ∑ m ∈ Finset.range n, chunkSumN x0 w1 b1 W2 b2 W3 p j m
  | 0, _ => by
      rw [st_k0_t1_zero, Finset.range_zero, Finset.sum_empty, add_zero]
  | n + 1, hn => by
      have hlt : n < k0_t1_loop.trips := by rw [trips8]; omega
      have hs : st_k0_t1 (F := Ideal) 𝒱 c bd i arg1 harg1 arg2 harg2 arg3 harg3 arg4 harg4 arg5 harg5 arg6 harg6 arg7 harg7 arg8 harg8 x0 w1 b1 (harg4.unread W2) (harg5.unread b2) (harg6.unread W3) init (n + 1)
          = tripR_k0_t1 (F := Ideal) 𝒱 c bd i arg1 harg1 arg2 harg2 arg3 harg3 arg4 harg4 arg5 harg5 arg6 harg6 arg7 harg7 arg8 harg8 x0 w1 b1 (harg4.unread W2) (harg5.unread b2) (harg6.unread W3) ⟨n, hlt⟩
              (st_k0_t1 (F := Ideal) 𝒱 c bd i arg1 harg1 arg2 harg2 arg3 harg3 arg4 harg4 arg5 harg5 arg6 harg6 arg7 harg7 arg8 harg8 x0 w1 b1 (harg4.unread W2) (harg5.unread b2) (harg6.unread W3) init n) :=
        st_k0_t1_succ (F := Ideal) 𝒱 c bd i arg1 harg1 arg2 harg2 arg3 harg3 arg4 harg4 arg5 harg5 arg6 harg6 arg7 harg7 arg8 harg8 x0 w1 b1 (harg4.unread W2) (harg5.unread b2) (harg6.unread W3) init ⟨n, hlt⟩
      rw [hs, trip_at, st_at init p j n (by omega), Finset.sum_range_succ, add_assoc]
      refine congrArg (init (ix2 p j) + ·) (congrArg (_ + ·) ?_)
      unfold chunkSumN
      rw [dif_pos (by omega : n < 8)]
      rfl

/-- After the eight trips: the initial value plus all eight contributions. -/
theorem st_last (init : FVec Ideal S256x8 .f32) (p : Fin 256) (j : Fin 8) :
    st_k0_t1 (F := Ideal) 𝒱 c bd i arg1 harg1 arg2 harg2 arg3 harg3 arg4 harg4 arg5 harg5 arg6 harg6 arg7 harg7 arg8 harg8 x0 w1 b1 (harg4.unread W2) (harg5.unread b2) (harg6.unread W3) init 8 (ix2 p j)
      = init (ix2 p j) + ∑ n : Fin 8, chunkSum x0 w1 b1 W2 b2 W3 n p j := by
  rw [st_at 𝒱 c bd i arg1 harg1 arg2 harg2 arg3 harg3 arg4 harg4 arg5 harg5 arg6 harg6 arg7 harg7 arg8 harg8 x0 w1 b1 W2 b2 W3 init p j 8 le_rfl, Finset.sum_range]
  refine congrArg (init (ix2 p j) + ·) (Finset.sum_congr rfl fun n _ => ?_)
  unfold chunkSumN
  rw [dif_pos n.isLt]

end Fold

end Cert.KernelIdeal.Pay

end
-- ==== Proof.KI.BodyValue.lean ====
/-
  What the idealized body leaves in the output block, entry by entry. The block is written by one store
  of the whole block, so its entry (p, j) is the store's value there: the rectifier of the accumulator
  after the eight trips plus the last bias. The accumulator starts at zero, so it is the sum of the
  eight chunks' contributions, which is the whole contraction over the 4096 units. Hence entry (p, j) is
  coefficient `j` of row `p` of the block of inputs the point was handed.
-/
import proofs.«108501_j38474317038072_2_alg».proof.Proof.KI.Body
import proofs.«108501_j38474317038072_2_alg».proof.Proof.KI.Loop
import Idealize.ShloMosaic.Lib.Pipeline.Value

set_option maxRecDepth 16384

noncomputable section

namespace Cert.KernelIdeal.Fr

open Idealize.ShloMosaic Idealize.ShloMosaic.TcCoe Idealize.ShloMosaic.ValueIdx
open Idealize.SL.Sem
open Cert.KernelIdeal Cert.KernelIdeal.Gen Cert.KernelIdeal.Pay Cert.Proof.Mlp
open scoped BigOperators

theorem hz2 : (![0, 0] : Fin 2 → Nat) = fun _ => 0 := funext fun a => by fin_cases a <;> rfl

/-- The accumulator's initial value is zero everywhere. -/
theorem pay1_at (p : Fin 256) (j : Fin 8) : k0_pay1 (F := Ideal) (ix2 p j) = 0 := by
  show Ideal.ofBits .f32 0x00000000#32 = 0
  exact Ideal.ofBits_zero_f32

theorem bodyRun_at (c : Dev nD) (i : grid0.Coords) (arg1 : Memref sig .tc .vmem S256x128 .f32) (harg1 : arg1.IsWhole) (arg2 : Memref sig .tc .vmem S128x4096 .bf16) (harg2 : arg2.IsWhole) (arg3 : Memref sig .tc .vmem S1x4096 .f32) (harg3 : arg3.IsWhole) (arg4 : Memref sig .tc .vmem S4096x4096 .bf16) (harg4 : arg4.IsWhole) (arg5 : Memref sig .tc .vmem S1x4096 .f32) (harg5 : arg5.IsWhole) (arg6 : Memref sig .tc .vmem S4096x8 .bf16) (harg6 : arg6.IsWhole) (arg7 : Memref sig .tc .vmem S1x8 .f32) (harg7 : arg7.IsWhole) (arg8 : Memref sig .tc .vmem S256x8 .f32) (harg8 : arg8.IsWhole)
    (x0 : Vec Ideal S256x128 .f32) (x1 : Vec Ideal S128x4096 .bf16) (x2 : Vec Ideal S1x4096 .f32) (x3 : Vec Ideal S4096x4096 .bf16) (x4 : Vec Ideal S1x4096 .f32) (x5 : Vec Ideal S4096x8 .bf16) (x6 : Vec Ideal S1x8 .f32) (p : Fin 256) (j : Fin 8) :
    (bodyRun (F := Ideal) c i arg1 harg1 arg2 harg2 arg3 harg3 arg4 harg4 arg5 harg5 arg6 harg6 arg7 harg7 arg8 harg8 x0 x1 x2 x3 x4 x5 x6).1 (ix2 p j)
      = coeff (fun z => x0 (ix2 p z)) (fun z u => x1 (ix2 z u)) (fun u => x2 (ix2 0 u)) (fun u h => x3 (ix2 u h)) (fun h => x4 (ix2 0 h))
          (fun h j => x5 (ix2 h j)) (fun j => x6 (ix2 0 j)) j := by
  unfold bodyRun
  dsimp only
  rw [View.canon_unit_zero hz2]
  simp only [readAt_unread, View.ld_unit_zero (S := S256x128) hz2, View.ld_unit_zero (S := S128x4096) hz2,
    View.ld_unit_zero (S := S1x4096) hz2, View.ld_unit_zero (S := S1x8) hz2]
  rw [pay3_at, show Scf.trips (0#32) (Scalar.addi 0#32 8#32) 1#32 = 8 from by decide, st_last, pay1_at, zero_add, coeff_chunks]
  rfl

end Cert.KernelIdeal.Fr

end
-- ==== Proof.KI.Coeff.lean ====
/-
  The idealized kernel's coefficient array after the launch. Grid point `t` is handed rows
  `256·t … 256·t + 255` of the input and the six resident operands whole, and writes back rows
  `256·t … 256·t + 255` of the (16384, 8) result; entry (p, j) of what it writes is coefficient `j` of row
  `256·t + p`. The 64 blocks are disjoint and cover the 16384 rows (row `r` is in block `r / 256`), so
  the array ends holding, at (r, j), coefficient `j` of row `r` — of the arrays as the launch finds them.
-/
import proofs.«108501_j38474317038072_2_alg».proof.Proof.KI.Run
import proofs.«108501_j38474317038072_2_alg».proof.Proof.KI.BodyValue
import Idealize.ShloMosaic.Lib.Pipeline.Value

set_option maxRecDepth 16384

noncomputable section

namespace Cert.KernelIdeal.Fr

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.Pay Cert.Proof.Mlp
open scoped BigOperators

variable (m : (ℓ : Loc nD τ sig) → Buf (Elt Ideal) ℓ)

/-- The printed index maps, decided over the 64 grid points: the input's and the result's row blocks move
    with the point, every other block index is zero. -/
theorem idx_facts : ∀ t : Fin cfg0.N, win0_0.index t (0 : Fin 2) = t.val
    ∧ win0_0.index t (1 : Fin 2) = 0
    ∧ win0_7.index t (0 : Fin 2) = t.val
    ∧ win0_7.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0 :=
  (by decide +kernel : ∀ t : Fin grid0.N, _)

/-- Row `p` of point `t`'s block is row `256·t + p` of the array. -/
def rowOf (t : Fin cfg0.N) (p : Fin 256) : Fin 16384 :=
  ⟨256 * t.val + p.val, by have := t.isLt; have h : cfg0.N = 64 := N_0; have := p.isLt; omega⟩

/-- Window 0's block at point `t` is rows `256·t …` of the input. -/
theorem blk0 (c : Dev nD) (t : Fin cfg0.N) (p : Fin 256) (z : Fin 128) :
    (iblk m c 0 t : S256x128.Idx → EReal) (ix2 p z) = (V m c main_arg0 : S16384x128.Idx → EReal) (ix2 (rowOf t p) z) := by
  obtain ⟨e00, e01, e70, e71, e10, e11, e20, e21, e30, e31, e40, e41, e50, e51, e60, e61⟩ := idx_facts t
  show V m c main_arg0 (((cfg0.win 0).blk t).view.emb (ix2 p z)) = V m c main_arg0 (ix2 (rowOf t p) z)
  refine congrArg (V m c main_arg0) (funext fun a => Fin.ext ?_)
  match a with
  | ⟨0, _⟩ => show win0_0.index t (0 : Fin 2) * 256 + 1 * p.val = 256 * t.val + p.val; omega
  | ⟨1, _⟩ => show win0_0.index t (1 : Fin 2) * 128 + 1 * z.val = z.val; omega

/-- Window 1 stages its whole array at every point. -/
theorem blk1 (c : Dev nD) (t : Fin cfg0.N) : (iblk m c 1 t : S128x4096.Idx → EReal) = (V m c main_v0 : S128x4096.Idx → EReal) := by
  obtain ⟨e00, e01, e70, e71, e10, e11, e20, e21, e30, e31, e40, e41, e50, e51, e60, e61⟩ := idx_facts t
  funext y
  show V m c main_v0 (((cfg0.win 1).blk t).view.emb y) = V m c main_v0 y
  refine congrArg (V m c main_v0) (funext fun a => Fin.ext ?_)
  match a with
  | ⟨0, _⟩ => show win0_1.index t (0 : Fin 2) * 128 + 1 * (y 0).val = (y 0).val; omega
  | ⟨1, _⟩ => show win0_1.index t (1 : Fin 2) * 4096 + 1 * (y 1).val = (y 1).val; omega

/-- Window 2 stages its whole array at every point. -/
theorem blk2 (c : Dev nD) (t : Fin cfg0.N) : (iblk m c 2 t : S1x4096.Idx → EReal) = (V m c main_v3 : S1x4096.Idx → EReal) := by
  obtain ⟨e00, e01, e70, e71, e10, e11, e20, e21, e30, e31, e40, e41, e50, e51, e60, e61⟩ := idx_facts t
  funext y
  show V m c main_v3 (((cfg0.win 2).blk t).view.emb y) = V m c main_v3 y
  refine congrArg (V m c main_v3) (funext fun a => Fin.ext ?_)
  match a with
  | ⟨0, _⟩ => show win0_2.index t (0 : Fin 2) * 1 + 1 * (y 0).val = (y 0).val; omega
  | ⟨1, _⟩ => show win0_2.index t (1 : Fin 2) * 4096 + 1 * (y 1).val = (y 1).val; omega

/-- Window 3 stages its whole array at every point. -/
theorem blk3 (c : Dev nD) (t : Fin cfg0.N) : (iblk m c 3 t : S4096x4096.Idx → EReal) = (V m c main_v1 : S4096x4096.Idx → EReal) := by
  obtain ⟨e00, e01, e70, e71, e10, e11, e20, e21, e30, e31, e40, e41, e50, e51, e60, e61⟩ := idx_facts t
  funext y
  show V m c main_v1 (((cfg0.win 3).blk t).view.emb y) = V m c main_v1 y
  refine congrArg (V m c main_v1) (funext fun a => Fin.ext ?_)
  match a with
  | ⟨0, _⟩ => show win0_3.index t (0 : Fin 2) * 4096 + 1 * (y 0).val = (y 0).val; omega
  | ⟨1, _⟩ => show win0_3.index t (1 : Fin 2) * 4096 + 1 * (y 1).val = (y 1).val; omega

/-- Window 4 stages its whole array at every point. -/
theorem blk4 (c : Dev nD) (t : Fin cfg0.N) : (iblk m c 4 t : S1x4096.Idx → EReal) = (V m c main_v4 : S1x4096.Idx → EReal) := by
  obtain ⟨e00, e01, e70, e71, e10, e11, e20, e21, e30, e31, e40, e41, e50, e51, e60, e61⟩ := idx_facts t
  funext y
  show V m c main_v4 (((cfg0.win 4).blk t).view.emb y) = V m c main_v4 y
  refine congrArg (V m c main_v4) (funext fun a => Fin.ext ?_)
  match a with
  | ⟨0, _⟩ => show win0_4.index t (0 : Fin 2) * 1 + 1 * (y 0).val = (y 0).val; omega
  | ⟨1, _⟩ => show win0_4.index t (1 : Fin 2) * 4096 + 1 * (y 1).val = (y 1).val; omega

/-- Window 5 stages its whole array at every point. -/
theorem blk5 (c : Dev nD) (t : Fin cfg0.N) : (iblk m c 5 t : S4096x8.Idx → EReal) = (V m c main_v2 : S4096x8.Idx → EReal) := by
  obtain ⟨e00, e01, e70, e71, e10, e11, e20, e21, e30, e31, e40, e41, e50, e51, e60, e61⟩ := idx_facts t
  funext y
  show V m c main_v2 (((cfg0.win 5).blk t).view.emb y) = V m c main_v2 y
  refine congrArg (V m c main_v2) (funext fun a => Fin.ext ?_)
  match a with
  | ⟨0, _⟩ => show win0_5.index t (0 : Fin 2) * 4096 + 1 * (y 0).val = (y 0).val; omega
  | ⟨1, _⟩ => show win0_5.index t (1 : Fin 2) * 8 + 1 * (y 1).val = (y 1).val; omega

/-- Window 6 stages its whole array at every point. -/
theorem blk6 (c : Dev nD) (t : Fin cfg0.N) : (iblk m c 6 t : S1x8.Idx → EReal) = (V m c main_v5 : S1x8.Idx → EReal) := by
  obtain ⟨e00, e01, e70, e71, e10, e11, e20, e21, e30, e31, e40, e41, e50, e51, e60, e61⟩ := idx_facts t
  funext y
  show V m c main_v5 (((cfg0.win 6).blk t).view.emb y) = V m c main_v5 y
  refine congrArg (V m c main_v5) (funext fun a => Fin.ext ?_)
  match a with
  | ⟨0, _⟩ => show win0_6.index t (0 : Fin 2) * 1 + 1 * (y 0).val = (y 0).val; omega
  | ⟨1, _⟩ => show win0_6.index t (1 : Fin 2) * 8 + 1 * (y 1).val = (y 1).val; omega

/-- Entry (p, j) of the result's block at point `t` is entry (256·t + p, j) of the array. -/
theorem emb7 (t : Fin cfg0.N) (p : Fin 256) (j : Fin 8) :
    ((cfg0.win 7).blk t).view.emb (ix2 p j) = (ix2 (rowOf t p) j : S16384x8.Idx) := by
  obtain ⟨e00, e01, e70, e71, e10, e11, e20, e21, e30, e31, e40, e41, e50, e51, e60, e61⟩ := idx_facts t
  refine funext fun a => Fin.ext ?_
  match a with
  | ⟨0, _⟩ => show win0_7.index t (0 : Fin 2) * 256 + 1 * p.val = 256 * t.val + p.val; omega
  | ⟨1, _⟩ => show win0_7.index t (1 : Fin 2) * 8 + 1 * j.val = j.val; omega

/-- Coefficient `j` of row `r`, from the arrays as the launch finds them. -/
def coeffRC (c : Dev nD) (r : Fin 16384) (j : Fin 8) : EReal :=
  coeff (fun z => (V m c main_arg0 : S16384x128.Idx → EReal) (ix2 r z))
    (fun z u => (V m c main_v0 : S128x4096.Idx → EReal) (ix2 z u)) (fun u => (V m c main_v3 : S1x4096.Idx → EReal) (ix2 0 u))
    (fun u h => (V m c main_v1 : S4096x4096.Idx → EReal) (ix2 u h)) (fun h => (V m c main_v4 : S1x4096.Idx → EReal) (ix2 0 h))
    (fun h j => (V m c main_v2 : S4096x8.Idx → EReal) (ix2 h j)) (fun j => (V m c main_v5 : S1x8.Idx → EReal) (ix2 0 j)) j

/-- The coefficient array: at (r, j), coefficient `j` of row `r`. -/
@[irreducible] def coeffArr (c : Dev nD) : S16384x8.Idx → EReal := fun i => coeffRC m c (i 0) (i 1)

theorem coeffArr_at (c : Dev nD) (r : Fin 16384) (j : Fin 8) : coeffArr m c (ix2 r j) = coeffRC m c r j := by
  unfold coeffArr
  rfl

/-- Entry (p, j) of what the body leaves at point `t` is entry (256·t + p, j) of the coefficient array. -/
theorem out_at (c : Dev nD) (t : Fin cfg0.N) (p : Fin 256) (j : Fin 8) :
    outAt m c t (ix2 p j) = coeffArr m c (ix2 (rowOf t p) j) := by
  rw [coeffArr_at]
  unfold outAt coeffRC
  rw [bodyRun_at]
  simp only [blk0 m c t, blk1 m c t, blk2 m c t, blk3 m c t, blk4 m c t, blk5 m c t, blk6 m c t]

/-- What point `t` writes back is block `t` of the coefficient array. -/
theorem flushed7_eq (c : Dev nD) (t : Fin cfg0.N) :
    (dats m 0 c).flushed 7 t = ((cfg0.win 7).blk t).view.read (Elt Ideal) (coeffArr m c) := by
  show (cfg0.win 7).cut (grid0.coords t) ((dats m 0 c).after 7 t) = _
  rw [after0_7]
  funext y
  have hp : (y 0).val < 256 := (y 0).isLt
  have hj : (y 1).val < 8 := (y 1).isLt
  have hx : (cfg0.win 7).xinj (grid0.coords t) y = (ix2 (⟨(y 0).val, hp⟩ : Fin 256) (⟨(y 1).val, hj⟩ : Fin 8) : S256x8.Idx) :=
    funext fun a => Fin.ext (by match a with | ⟨0, _⟩ => rfl | ⟨1, _⟩ => rfl)
  have he : ((cfg0.win 7).blk t).view.emb y = (ix2 (rowOf t ⟨(y 0).val, hp⟩) (⟨(y 1).val, hj⟩ : Fin 8) : S16384x8.Idx) := by
    obtain ⟨e00, e01, e70, e71, e10, e11, e20, e21, e30, e31, e40, e41, e50, e51, e60, e61⟩ := idx_facts t
    refine funext fun a => Fin.ext ?_
    match a with
    | ⟨0, _⟩ => show win0_7.index t (0 : Fin 2) * 256 + 1 * (y 0).val = 256 * t.val + (y 0).val; omega
    | ⟨1, _⟩ => show win0_7.index t (1 : Fin 2) * 8 + 1 * (y 1).val = (y 1).val; omega
  show outAt m c t ((cfg0.win 7).xinj (grid0.coords t) y) = coeffArr m c (((cfg0.win 7).blk t).view.emb y)
  exact (congrArg (outAt m c t) hx).trans ((out_at m c t _ _).trans (congrArg (coeffArr m c) he.symm))

/-- An entry is in point `t`'s block iff each coordinate is in the block's range on its axis. -/
theorem mem_blk7 (t : Fin cfg0.N) (i : S16384x8.Idx) :
    i ∈ ((cfg0.win 7).blk t).view.set ↔ ∀ a : Fin 2, win0_7.index t a * S256x8.size a ≤ (i a).val ∧ (i a).val < win0_7.index t a * S256x8.size a + S256x8.size a := by
  show i ∈ ((View.whole main_v6).slice (win0_7.rect t)).set ↔ _
  rw [View.set_slice_whole, Rect.mem_set_unit]
  exact Iff.rfl

/-- Every entry is in some point's block: row `r` is in block `r / 256`. -/
theorem cover7 (i : S16384x8.Idx) : ∃ t : Fin cfg0.N, (cfg0.win 7).flush t = true ∧ i ∈ ((cfg0.win 7).blk t).view.set := by
  have hi0 : (i 0).val < 16384 := (i 0).isLt
  have hi1 : (i 1).val < 8 := (i 1).isLt
  have hN : cfg0.N = 64 := N_0
  let t : Fin cfg0.N := ⟨(i 0).val / 256, by omega⟩
  obtain ⟨e00, e01, e70, e71, e10, e11, e20, e21, e30, e31, e40, e41, e50, e51, e60, e61⟩ := idx_facts t
  refine ⟨t, flush0_7 t, ?_⟩
  rw [mem_blk7]
  intro a
  have ht : t.val = (i 0).val / 256 := rfl
  match a with
  | ⟨0, _⟩ => show win0_7.index t (0 : Fin 2) * 256 ≤ (i 0).val ∧ (i 0).val < win0_7.index t (0 : Fin 2) * 256 + 256; omega
  | ⟨1, _⟩ => show win0_7.index t (1 : Fin 2) * 8 ≤ (i 1).val ∧ (i 1).val < win0_7.index t (1 : Fin 2) * 8 + 8; omega

/-- The result array after the launch is the coefficient array. -/
theorem final7 (c : Dev nD) : (dats m 0 c).arrAt 7 cfg0.N = coeffArr m c :=
  (dats m 0 c).arrAt_eq_of_cover 7 (coeffArr m c) (fun t _ => flushed7_eq m c t) (cover7)

end Cert.KernelIdeal.Fr

end
-- ==== Proof.RefCoeff.lean ====
/-
  The idealized reference's three layers, read at one entry. Each is a whole matrix product, a bias row
  broadcast down the rows, and the leaky rectifier (a comparison with zero, the slope times the value,
  a choice between the two). Entry (r, i) of the first hidden layer is unit `i` at row `r` of the input;
  likewise the second; entry (r, j) of the result is coefficient `j` at row `r`.
-/
import proofs.«108501_j38474317038072_2_alg».proof.Proof.Gen.ReferenceIdeal.Read
import proofs.«108501_j38474317038072_2_alg».proof.Proof.Mlp

set_option maxRecDepth 16384

noncomputable section

namespace Cert.Proof.RefCoeff

open Idealize.ShloMosaic Idealize.ShloMosaic.ValueIdx Cert.ReferenceIdeal Cert.ReferenceIdeal.Gen Cert.ReferenceIdeal.Read Cert.Proof.Mlp
open scoped BigOperators

/-! ### The composed index functions at (r, ·) -/

theorem lidx0 (r : Fin 16384) (i : Fin 4096) (k : Fin 128) : lidx_main_v0 (ix2 r i) k = ix2 r k :=
  funext fun a => Fin.ext (by match a with | ⟨0, _⟩ => rfl | ⟨1, _⟩ => rfl)
theorem ridx0 (r : Fin 16384) (i : Fin 4096) (k : Fin 128) : ridx_main_v0 (ix2 r i) k = ix2 k i :=
  funext fun a => Fin.ext (by match a with | ⟨0, _⟩ => rfl | ⟨1, _⟩ => rfl)
theorem bidx0 (r : Fin 16384) (i : Fin 4096) : idx_main_v1 (idx_main_v2 (ix2 r i)) = ix1 i :=
  funext fun a => Fin.ext (by match a with | ⟨0, _⟩ => rfl)
theorem lidx9 (r : Fin 16384) (h : Fin 4096) (k : Fin 4096) : lidx_main_v9 (ix2 r h) k = ix2 r k :=
  funext fun a => Fin.ext (by match a with | ⟨0, _⟩ => rfl | ⟨1, _⟩ => rfl)
theorem ridx9 (r : Fin 16384) (h : Fin 4096) (k : Fin 4096) : ridx_main_v9 (ix2 r h) k = ix2 k h :=
  funext fun a => Fin.ext (by match a with | ⟨0, _⟩ => rfl | ⟨1, _⟩ => rfl)
theorem bidx9 (r : Fin 16384) (h : Fin 4096) : idx_main_v10 (idx_main_v11 (ix2 r h)) = ix1 h :=
  funext fun a => Fin.ext (by match a with | ⟨0, _⟩ => rfl)
theorem lidx18 (r : Fin 16384) (j : Fin 8) (k : Fin 4096) : lidx_main_v18 (ix2 r j) k = ix2 r k :=
  funext fun a => Fin.ext (by match a with | ⟨0, _⟩ => rfl | ⟨1, _⟩ => rfl)
theorem ridx18 (r : Fin 16384) (j : Fin 8) (k : Fin 4096) : ridx_main_v18 (ix2 r j) k = ix2 k j :=
  funext fun a => Fin.ext (by match a with | ⟨0, _⟩ => rfl | ⟨1, _⟩ => rfl)
theorem bidx18 (r : Fin 16384) (j : Fin 8) : idx_main_v19 (idx_main_v20 (ix2 r j)) = ix1 j :=
  funext fun a => Fin.ext (by match a with | ⟨0, _⟩ => rfl)

/-! ### The three layers -/

variable (x0 : (⟨S16384x128, .f32⟩ : BufTy).Contents (Elt Ideal)) (x2 : (⟨S128x4096, .f32⟩ : BufTy).Contents (Elt Ideal))
  (x3 : (⟨S4096, .f32⟩ : BufTy).Contents (Elt Ideal)) (x4 : (⟨S4096x4096, .f32⟩ : BufTy).Contents (Elt Ideal))
  (x5 : (⟨S4096, .f32⟩ : BufTy).Contents (Elt Ideal)) (x6 : (⟨S4096x8, .f32⟩ : BufTy).Contents (Elt Ideal))
  (x7 : (⟨S8, .f32⟩ : BufTy).Contents (Elt Ideal))

theorem layer1 (r : Fin 16384) (i : Fin 4096) :
    val_main_v8 (F := Ideal) x0 x2 x3 (ix2 r i)
      = hid1 (fun z => x0 (ix2 r z)) (fun z i => x2 (ix2 z i)) (fun i => x3 (ix1 i)) i := by
  rw [val_main_v8_apply, val_main_v5_apply, val_main_v7_apply, val_main_v6_apply, val_main_cst_0_apply, val_main_v4_apply, val_main_cst_apply,
    val_main_v3_apply, val_main_v0_apply, val_main_v2_apply, val_main_v1_apply]
  simp only [lidx0, ridx0, bidx0]
  rfl

theorem layer2 (r : Fin 16384) (h : Fin 4096) :
    val_main_v17 (F := Ideal) x0 x2 x3 x4 x5 (ix2 r h)
      = hid2 (fun z => x0 (ix2 r z)) (fun z i => x2 (ix2 z i)) (fun i => x3 (ix1 i)) (fun i h => x4 (ix2 i h)) (fun h => x5 (ix1 h)) h := by
  rw [val_main_v17_apply, val_main_v14_apply, val_main_v16_apply, val_main_v15_apply, val_main_cst_2_apply, val_main_v13_apply, val_main_cst_1_apply,
    val_main_v12_apply, val_main_v9_apply, val_main_v11_apply, val_main_v10_apply]
  simp only [lidx9, ridx9, bidx9, layer1]
  rfl

theorem layer3 (r : Fin 16384) (j : Fin 8) :
    val_main_v26 (F := Ideal) x0 x2 x3 x4 x5 x6 x7 (ix2 r j)
      = coeff (fun z => x0 (ix2 r z)) (fun z i => x2 (ix2 z i)) (fun i => x3 (ix1 i)) (fun i h => x4 (ix2 i h)) (fun h => x5 (ix1 h))
          (fun h j => x6 (ix2 h j)) (fun j => x7 (ix1 j)) j := by
  rw [val_main_v26_apply, val_main_v23_apply, val_main_v25_apply, val_main_v24_apply, val_main_cst_4_apply, val_main_v22_apply, val_main_cst_3_apply,
    val_main_v21_apply, val_main_v18_apply, val_main_v20_apply, val_main_v19_apply]
  simp only [lidx18, ridx18, bidx18, layer2]
  rfl

end Cert.Proof.RefCoeff

end
-- ==== Proof.KI.Args.lean ====
/-
  The arrays the launch finds, in terms of the argument arrays. The weight matrices are staged after a
  change of float format, which is the identity on extended reals; each bias vector is staged as a
  one-row matrix whose entry (0, u) is the vector's entry `u`; the input is staged as it is. So the
  kernel's coefficient array is, entry by entry, the reference's coefficient stage of the same arguments.
-/
import proofs.«108501_j38474317038072_2_alg».proof.Proof.KI.Coeff
import proofs.«108501_j38474317038072_2_alg».proof.Proof.RefCoeff
import Idealize.ShloMosaic.Lib.StableHlo.Run
import Idealize.ShloMosaic.Lib.Pipeline.Value

set_option maxRecDepth 16384

noncomputable section

namespace Cert.KernelIdeal.Fr

open Idealize.ShloMosaic Idealize.ShloMosaic.TcCoe Idealize.ShloMosaic.ValueIdx Idealize.ShloMosaic.StableHlo
open Idealize.SL.Sem
open Cert.KernelIdeal Cert.KernelIdeal.Gen Cert.Proof.Mlp
open scoped BigOperators

variable (m : (ℓ : Loc nD τ sig) → Buf (Elt Ideal) ℓ)

/-! ### The six host operations before the launch -/

theorem V_v0 (c : Dev nD) : (V m c main_v0 : S128x4096.Idx → EReal) = (m ((c : Thread nD τ).loc main_arg2) : S128x4096.Idx → EReal) := by
  show StableHlo.after hostOps0 (fun b => m (c, b)) (Proc.devRef .tc main_v0) = _
  after_results
  rfl
theorem V_v1 (c : Dev nD) : (V m c main_v1 : S4096x4096.Idx → EReal) = (m ((c : Thread nD τ).loc main_arg4) : S4096x4096.Idx → EReal) := by
  show StableHlo.after hostOps0 (fun b => m (c, b)) (Proc.devRef .tc main_v1) = _
  after_results
  rfl
theorem V_v2 (c : Dev nD) : (V m c main_v2 : S4096x8.Idx → EReal) = (m ((c : Thread nD τ).loc main_arg6) : S4096x8.Idx → EReal) := by
  show StableHlo.after hostOps0 (fun b => m (c, b)) (Proc.devRef .tc main_v2) = _
  after_results
  rfl
theorem V_v3 (c : Dev nD) : (V m c main_v3 : S1x4096.Idx → EReal)
    = shapeCast S1x4096 (m ((c : Thread nD τ).loc main_arg3) : S4096.Idx → EReal) shapeCasts_S4096_S1x4096 := by
  show StableHlo.after hostOps0 (fun b => m (c, b)) (Proc.devRef .tc main_v3) = _
  after_results
  rfl
theorem V_v4 (c : Dev nD) : (V m c main_v4 : S1x4096.Idx → EReal)
    = shapeCast S1x4096 (m ((c : Thread nD τ).loc main_arg5) : S4096.Idx → EReal) shapeCasts_S4096_S1x4096 := by
  show StableHlo.after hostOps0 (fun b => m (c, b)) (Proc.devRef .tc main_v4) = _
  after_results
  rfl
theorem V_v5 (c : Dev nD) : (V m c main_v5 : S1x8.Idx → EReal)
    = shapeCast S1x8 (m ((c : Thread nD τ).loc main_arg7) : S8.Idx → EReal) shapeCasts_S8_S1x8 := by
  show StableHlo.after hostOps0 (fun b => m (c, b)) (Proc.devRef .tc main_v5) = _
  after_results
  rfl

/-- A vector reshaped to one row: entry (0, u) is entry `u`. -/
theorem row4096 (X : S4096.Idx → EReal) (u : Fin 4096) : shapeCast S1x4096 X shapeCasts_S4096_S1x4096 (ix2 0 u) = X (ix1 u) := by
  rw [shapeCast_addUnit_apply ![4096] X shapeCasts_S4096_S1x4096 (ix2 0 u)]
  exact congrArg X (funext fun a => by match a with | ⟨0, _⟩ => rfl)
theorem row8 (X : S8.Idx → EReal) (u : Fin 8) : shapeCast S1x8 X shapeCasts_S8_S1x8 (ix2 0 u) = X (ix1 u) := by
  rw [shapeCast_addUnit_apply ![8] X shapeCasts_S8_S1x8 (ix2 0 u)]
  exact congrArg X (funext fun a => by match a with | ⟨0, _⟩ => rfl)

/-- The coefficient depends on the three bias vectors only through their entries. -/
theorem coeff_congr {x : Fin 128 → EReal} {W1 : Fin 128 → Fin 4096 → EReal} {W2 : Fin 4096 → Fin 4096 → EReal} {W3 : Fin 4096 → Fin 8 → EReal}
    {b1 b1' b2 b2' : Fin 4096 → EReal} {b3 b3' : Fin 8 → EReal} (h1 : b1 = b1') (h2 : b2 = b2') (h3 : b3 = b3') (j : Fin 8) :
    coeff x W1 b1 W2 b2 W3 b3 j = coeff x W1 b1' W2 b2' W3 b3' j := by
  subst h1 h2 h3; rfl

/-- The kernel's coefficient array is the reference's coefficient stage of the argument arrays. -/
theorem coeffArr_eq (c : Dev nD) :
    coeffArr m c = Cert.ReferenceIdeal.Read.val_main_v26 (F := Ideal) (m ((c : Thread nD τ).loc main_arg0)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) := by
  funext (i : S16384x8.Idx)
  obtain ⟨r, j, rfl⟩ : ∃ (r : Fin 16384) (j : Fin 8), i = ix2 r j := ⟨i 0, i 1, eq_ix2 i⟩
  rw [coeffArr_at]
  refine Eq.trans ?_ (Cert.Proof.RefCoeff.layer3 _ _ _ _ _ _ _ r j).symm
  unfold coeffRC
  rw [V_main_arg0, V_v0, V_v1, V_v2, V_v3, V_v4, V_v5]
  exact coeff_congr (funext fun u => row4096 _ u) (funext fun u => row4096 _ u) (funext fun u => row8 _ u) j

end Cert.KernelIdeal.Fr

end
-- ==== Proof.Tail.lean ====
/-
  What both programs do after the coefficients. From the time samples `data_t` the basis (1, t, t², t³) is
  stacked; the coefficients, read as two rows of four per sample, are contracted with it (the generated
  data); the basis' column norms over the time axis weight the squared coefficients, summed per sample
  (the energy). Both are functions of `data_t` and the coefficient array alone, and the basis of
  `data_t` alone: so two programs with equal coefficients and equal `data_t` have equal results.
-/
import proofs.«108501_j38474317038072_2_alg».proof.Proof.Gen.ReferenceIdeal.Read

set_option maxRecDepth 16384

noncomputable section

namespace Cert.Proof.Tail

open Idealize.ShloMosaic Cert.ReferenceIdeal Cert.ReferenceIdeal.Gen Cert.ReferenceIdeal.Read

variable {F : FTy → Type} [FloatOps F]

/-- The generated data: the basis contracted with the coefficients, per sample. -/
def genData (x1 : (⟨S16384x100x1, .f32⟩ : BufTy).Contents (Elt F)) (co : (⟨S16384x8, .f32⟩ : BufTy).Contents (Elt F)) : (⟨S16384x100x2, .f32⟩ : BufTy).Contents (Elt F) :=
  Host.dotGeneral dot_S16384x100x4_S16384x2x4_S16384x100x2_2_2_1_1_0_0 none (val_main_v36 (F := F) x1)
    (shapeCast S16384x2x4 co shapeCasts_S16384x8_S16384x2x4 : FVec F S16384x2x4 .f32)

/-- The energy: the squared coefficients weighted by the basis' norms, summed per sample. -/
def energy (x1 : (⟨S16384x100x1, .f32⟩ : BufTy).Contents (Elt F)) (co : (⟨S16384x8, .f32⟩ : BufTy).Contents (Elt F)) : (⟨S16384x1, .f32⟩ : BufTy).Contents (Elt F) :=
  broadcastInDim S16384x1 ![0] bcast_S16384_S16384x1_0
    (Host.reduceAdd
      (mulf (mulf (shapeCast S16384x2x4 co shapeCasts_S16384x8_S16384x2x4 : FVec F S16384x2x4 .f32)
                  (shapeCast S16384x2x4 co shapeCasts_S16384x8_S16384x2x4 : FVec F S16384x2x4 .f32))
            (val_main_v42 (F := F) x1))
      (val_main_cst_6 (F := F)) reducesTo_S16384x2x4_S16384_d1_2 h_S_)

/-- The reference's generated data is that function of its coefficients. -/
theorem v38_eq (x0 : (⟨S16384x128, .f32⟩ : BufTy).Contents (Elt F)) (x1 : (⟨S16384x100x1, .f32⟩ : BufTy).Contents (Elt F)) (x2 : (⟨S128x4096, .f32⟩ : BufTy).Contents (Elt F)) (x3 : (⟨S4096, .f32⟩ : BufTy).Contents (Elt F)) (x4 : (⟨S4096x4096, .f32⟩ : BufTy).Contents (Elt F)) (x5 : (⟨S4096, .f32⟩ : BufTy).Contents (Elt F)) (x6 : (⟨S4096x8, .f32⟩ : BufTy).Contents (Elt F)) (x7 : (⟨S8, .f32⟩ : BufTy).Contents (Elt F)) :
    val_main_v38 (F := F) x0 x1 x2 x3 x4 x5 x6 x7 = genData x1 (val_main_v26 (F := F) x0 x2 x3 x4 x5 x6 x7) := rfl

/-- The reference's energy is that function of its coefficients. -/
theorem v45_eq (x0 : (⟨S16384x128, .f32⟩ : BufTy).Contents (Elt F)) (x1 : (⟨S16384x100x1, .f32⟩ : BufTy).Contents (Elt F)) (x2 : (⟨S128x4096, .f32⟩ : BufTy).Contents (Elt F)) (x3 : (⟨S4096, .f32⟩ : BufTy).Contents (Elt F)) (x4 : (⟨S4096x4096, .f32⟩ : BufTy).Contents (Elt F)) (x5 : (⟨S4096, .f32⟩ : BufTy).Contents (Elt F)) (x6 : (⟨S4096x8, .f32⟩ : BufTy).Contents (Elt F)) (x7 : (⟨S8, .f32⟩ : BufTy).Contents (Elt F)) :
    val_main_v45 (F := F) x0 x1 x2 x3 x4 x5 x6 x7 = energy x1 (val_main_v26 (F := F) x0 x2 x3 x4 x5 x6 x7) := rfl

end Cert.Proof.Tail

end
-- ==== Proof.KI.TailValue.lean ====
/-
  The idealized kernel's three results after the launch other than the coefficients. The host operations
  after the launch read only `data_t` (never written) and the coefficient array the launch left; what they
  compute is the shared tail: the basis of `data_t`, the generated data and the energy of `data_t` and
  the coefficients. Each is read off the fold of the operations over any contents of the buffers, then
  taken at what the launch leaves.
-/
import proofs.«108501_j38474317038072_2_alg».proof.Proof.KI.Run
import proofs.«108501_j38474317038072_2_alg».proof.Proof.Tail
import Idealize.ShloMosaic.Lib.StableHlo.Run

set_option maxRecDepth 16384

noncomputable section

namespace Cert.KernelIdeal.Fr

open Idealize.ShloMosaic Idealize.ShloMosaic.TcCoe Idealize.ShloMosaic.StableHlo
open Idealize.SL.Sem
open Idealize.ShloMosaic.Pipeline (Dat)
open Cert.KernelIdeal Cert.KernelIdeal.Gen

variable {F : FTy → Type} [FloatOps F]

/-! ### The operations after the launch, over any contents `G` of the buffers -/

theorem tailG_basis (G : Valuation τ sig (Elt F)) :
    StableHlo.after (hostOps1 ++ (hostOps1_1 ++ (hostOps1_2 ++ []))) G (Proc.devRef .tc main_v16)
      = Cert.ReferenceIdeal.Read.val_main_v36 (F := F) (G (Proc.devRef .tc main_arg1)) := rfl

theorem tailG_genData (G : Valuation τ sig (Elt F)) :
    StableHlo.after (hostOps1 ++ (hostOps1_1 ++ (hostOps1_2 ++ []))) G (Proc.devRef .tc main_v18)
      = Cert.Proof.Tail.genData (F := F) (G (Proc.devRef .tc main_arg1)) (G (Proc.devRef .tc main_v6)) := rfl

set_option maxHeartbeats 4000000 in
theorem tailG_energy (G : Valuation τ sig (Elt F)) :
    StableHlo.after (hostOps1 ++ (hostOps1_1 ++ (hostOps1_2 ++ []))) G (Proc.devRef .tc main_v25)
      = Cert.Proof.Tail.energy (F := F) (G (Proc.devRef .tc main_arg1)) (G (Proc.devRef .tc main_v6)) := rfl

/-! ### At what the launch leaves -/

variable (m : (ℓ : Loc nD τ sig) → Buf (Elt F) ℓ)

/-- The buffers as the launch leaves them: the staged arrays at what the write-backs left, the others as found. -/
abbrev afterLaunch (c : Dev nD) : Valuation τ sig (Elt F) :=
  Pipeline.withArrays (cfgs 0).spec c (V0 m c) fun w => (dats m 0 c).arrAt w (cfgs 0).N

/-- The coefficient array is window 7's. -/
theorem left_v6 (c : Dev nD) : afterLaunch m c (Proc.devRef .tc main_v6) = (dats m 0 c).arrAt 7 cfg0.N :=
  Pipeline.withArrays_arr spec0 launch0.win.arr_inj c _ _ 7

/-- `data_t` is no staged array and no host operation before the launch writes it. -/
theorem left_arg1 (c : Dev nD) : afterLaunch m c (Proc.devRef .tc main_arg1) = m ((c : Thread nD τ).loc main_arg1) :=
  (Pipeline.withArrays_of_ne _ c (V0 m c) _ main_arg1 (by exact (by decide : ∀ w, Pipeline.arrRef spec0 w ≠ main_arg1))).trans (V_main_arg1 m c)

theorem tail_basis (c : Dev nD) :
    Pipeline.afterTail₀ cfgs (dats m) 0 (V0 m) tailOps c main_v16
      = Cert.ReferenceIdeal.Read.val_main_v36 (F := F) (m ((c : Thread nD τ).loc main_arg1)) :=
  (tailG_basis (afterLaunch m c)).trans (by rw [left_arg1])

theorem tail_genData (c : Dev nD) :
    Pipeline.afterTail₀ cfgs (dats m) 0 (V0 m) tailOps c main_v18
      = Cert.Proof.Tail.genData (F := F) (m ((c : Thread nD τ).loc main_arg1)) ((dats m 0 c).arrAt 7 cfg0.N) :=
  (tailG_genData (afterLaunch m c)).trans (by rw [left_arg1, left_v6])

theorem tail_energy (c : Dev nD) :
    Pipeline.afterTail₀ cfgs (dats m) 0 (V0 m) tailOps c main_v25
      = Cert.Proof.Tail.energy (F := F) (m ((c : Thread nD τ).loc main_arg1)) ((dats m 0 c).arrAt 7 cfg0.N) :=
  (tailG_energy (afterLaunch m c)).trans (by rw [left_arg1, left_v6])

end Cert.KernelIdeal.Fr

end
-- ==== Proof.KI.Value.lean ====
/-
  The idealized kernel's run with its four results named. The coefficient array is what the launch's 64
  write-backs leave; the other three results are the shared tail of `data_t` and that array; the eight
  argument arrays end as they began.
-/
import proofs.«108501_j38474317038072_2_alg».proof.Proof.KI.Args
import proofs.«108501_j38474317038072_2_alg».proof.Proof.KI.TailValue

set_option maxRecDepth 16384

noncomputable section

namespace Cert.KernelIdeal.Fr

open Idealize.ShloMosaic Idealize.ShloMosaic.TcCoe
open Idealize.SL.Sem
open Cert.KernelIdeal Cert.KernelIdeal.Gen

variable (m : (ℓ : Loc nD τ sig) → Buf (Elt Ideal) ℓ) (ρ : Dev nD → PrngReg)

theorem value_run : θ_run defs (onTc (τ := τ) (main (F := Ideal))) ⟨m, fun _ => 0, ρ⟩ (fun r => ∀ c : Dev nD,
      r.2.mem ((c.tc : Thread nD τ).loc main_v18) = Cert.Proof.Tail.genData (F := Ideal) (m ((c : Thread nD τ).loc main_arg1)) (coeffArr m c)
      ∧ r.2.mem ((c.tc : Thread nD τ).loc main_v25) = Cert.Proof.Tail.energy (F := Ideal) (m ((c : Thread nD τ).loc main_arg1)) (coeffArr m c)
      ∧ r.2.mem ((c.tc : Thread nD τ).loc main_v6) = coeffArr m c
      ∧ r.2.mem ((c.tc : Thread nD τ).loc main_v16) = Cert.ReferenceIdeal.Read.val_main_v36 (F := Ideal) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨
      (((h c).2 main_v18 (Pipeline.mem_restRefs_of main_v18 (by decide) (by decide))).trans ((tail_genData m c).trans (by rw [final7]))),
      (((h c).2 main_v25 (Pipeline.mem_restRefs_of main_v25 (by decide) (by decide))).trans ((tail_energy m c).trans (by rw [final7]))),
      (((h c).1 7).trans (final7 m c)),
      (((h c).2 main_v16 (Pipeline.mem_restRefs_of main_v16 (by decide) (by decide))).trans (tail_basis m c)),
      (((h c).1 0).trans (((dats m 0 c).arrAt_in 0 rfl _).trans ((A_eq m c 0).trans (V_main_arg0 m c)))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c))⟩) (run_main m ρ)

end Cert.KernelIdeal.Fr

end
-- ==== Proof.lean ====
/-
  The five claims. Three frames: the kernel as printed and its idealization each run to the end, fault
  nowhere and leave the eight argument arrays unchanged (their one launch of 64 grid points between six
  host operations before and twenty-four after); the reference is a straight line of host operations.
  The idealization rewrote nothing, so it preserves the kernel trivially. The value claim: at the exact
  extended reals the kernel's three-layer perceptron, whose second and third layers are computed in
  eight chunks of 512 hidden units accumulated into a zero matrix, is the reference's, computed with
  whole matrix products; both then feed the same polynomial-basis tail.
-/
import proofs.«108501_j38474317038072_2_alg».proof.Defs
import proofs.«108501_j38474317038072_2_alg».proof.Proof.K.Run
import proofs.«108501_j38474317038072_2_alg».proof.Proof.KI.Run
import proofs.«108501_j38474317038072_2_alg».proof.Proof.KI.Value
import proofs.«108501_j38474317038072_2_alg».proof.Proof.RefCoeff
import proofs.«108501_j38474317038072_2_alg».proof.Proof.Tail
import proofs.«108501_j38474317038072_2_alg».proof.Proof.Gen.Pre_finite_inputs
import Idealize.ShloMosaic.Adequacy
import Idealize.ShloMosaic.Init

noncomputable section

namespace Cert.Proof

open Idealize.ShloMosaic Idealize.SL.Sem

theorem frame_k : Cert.frame_Kernel := fun m ρ _ => Cert.Kernel.Fr.frame m ρ
theorem frame_ki : Cert.frame_KernelIdeal := fun m ρ _ => Cert.KernelIdeal.Fr.frame m ρ
theorem frame_ri : Cert.frame_ReferenceIdeal := fun m ρ _ =>
  (θ_run Cert.ReferenceIdeal.defs _ _).mono (fun _ h c => (h c).2.2.2.2) (Cert.ReferenceIdeal.Value.run (F := Ideal) m ρ)

theorem preserves : Cert.preserves_Kernel_KernelIdeal := trivial

/-- Both programs run; the kernel's coefficient array is the reference's coefficient stage of the agreeing
    arguments, and the other three results are the same tail of `data_t` and the coefficients. The
    precondition is not used: regrouping a sum needs no finiteness. -/
theorem algebraic : Cert.algebraic_KernelIdeal_ReferenceIdeal := by
  intro m ρ m' ρ' _ hagree
  refine ⟨_, _, _, _, Cert.KernelIdeal.Fr.value_run m ρ, ?_⟩
  refine (θ_run Cert.ReferenceIdeal.defs _ _).mono (fun _ h c => ?_) (Cert.ReferenceIdeal.Value.run (F := Ideal) m' ρ')
  obtain ⟨h38, h45, h26, h36, a0, a1, a2, a3, a4, a5, a6, a7⟩ := h c
  obtain ⟨g0, g1, g2, g3, g4, g5, g6, g7⟩ := hagree c
  have hco : Cert.ReferenceIdeal.Read.val_main_v26 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
        = Cert.KernelIdeal.Fr.coeffArr m c := by
    rw [g0, g2, g3, g4, g5, g6, g7]
    exact (Cert.KernelIdeal.Fr.coeffArr_eq m c).symm
  refine ⟨?_, ?_, ?_, ?_, a0, a1, a2, a3, a4, a5, a6, a7⟩
  · refine h38.trans ((Cert.ReferenceIdeal.Read.val_main_v38_eq m' c).trans ((Cert.Proof.Tail.v38_eq _ _ _ _ _ _ _ _).trans ?_))
    rw [g1, hco]
  · refine h45.trans ((Cert.ReferenceIdeal.Read.val_main_v45_eq m' c).trans ((Cert.Proof.Tail.v45_eq _ _ _ _ _ _ _ _).trans ?_))
    rw [g1, hco]
  · exact h26.trans ((Cert.ReferenceIdeal.Read.val_main_v26_eq m' c).trans hco)
  · refine h36.trans ((Cert.ReferenceIdeal.Read.val_main_v36_eq _).trans ?_)
    rw [g1]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
